-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S128x256 : Shape := ⟨2, ![128, 256]⟩
abbrev S128x1 : Shape := ⟨2, ![128, 1]⟩
abbrev S128x8192 : Shape := ⟨2, ![128, 8192]⟩
abbrev S128 : Shape := ⟨1, ![128]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .bf16⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S128x256, .bf16⟩
  | .local _ .vmem, ⟨5, _⟩ => ⟨S128x256, .bf16⟩
  | .local _ .vmem, ⟨6, _⟩ => ⟨S8192x256, .bf16⟩
  | .local _ .vmem, ⟨7, _⟩ => ⟨S128x1, .f32⟩
  | .local _ .vmem, ⟨8, _⟩ => ⟨S128x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S4096x256_S4096x256_S8192x256_d0 : Shape.Concatenates [S4096x256, S4096x256] S8192x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  iota_S128x8192_d0_w32 : S128x8192.Iotas .tc 32 [0]
  iota_S128x8192_d1_w32 : S128x8192.Iotas .tc 32 [1]
  reduces_S128x8192_S128 : S128x8192.Reduces [1] S128
  shapeCasts_S128_S128x1 : S128.ShapeCasts S128x1
  broadcasts_S128x1_S128x8192 : S128x1.Broadcasts S128x8192
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  h_S_ : 0 < S_.numel
  dot_S128x256_S8192x256_S128x8192_1_1_0_0_n_n_wf : DotDims.WF S128x256 S8192x256 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S8192x256.size a
  hwx1_0 : ∀ i : grid1.Coords, EltTy.bits .bf16 = 32 ∨ (Rect.block (s := S8192x256) S128x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S8192x1.size a
  hwx1_2 : ∀ i : grid1.Coords, EltTy.bits .f32 = 32 ∨ (Rect.block (s := S8192x1) S128x1.size (cc1_transform_2 i) (hinb1_2 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S8192, .i32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S8192x1x1, .i32⟩
  | .hbm, ⟨57, _⟩ => ⟨S1, .i32⟩
  | .hbm, ⟨58, _⟩ => ⟨S_, .i32⟩
  | .hbm, ⟨59, _⟩ => ⟨S8192x1x1, .i32⟩
  | .hbm, ⟨60, _⟩ => ⟨S8192x1x1, .i1⟩
  | .hbm, ⟨61, _⟩ => ⟨S1x1x1, .i32⟩
  | .hbm, ⟨62, _⟩ => ⟨S8192x1x1, .i32⟩
  | .hbm, ⟨63, _⟩ => ⟨S8192x1x1, .i1⟩
  | .hbm, ⟨64, _⟩ => ⟨S8192x1x1, .i1⟩
  | .hbm, ⟨65, _⟩ => ⟨S_, .i1⟩
  | .hbm, ⟨66, _⟩ => ⟨S8192x1, .i1⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v20 : Ref sig .tc := ⟨.hbm, 47, rfl⟩
abbrev main_v21 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v22 : Ref sig .tc := ⟨.hbm, 70, rfl⟩
abbrev main_cst_3 : Ref sig .tc := ⟨.hbm, 71, rfl⟩
abbrev main_v23 : Ref sig .tc := ⟨.hbm, 72, rfl⟩
abbrev main_v24 : Ref sig .tc := ⟨.hbm, 73, rfl⟩
abbrev main_cst_4 : Ref sig .tc := ⟨.hbm, 74, rfl⟩
abbrev main_v25 : Ref sig .tc := ⟨.hbm, 75, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x256_S8192x256_S8192x8192_1_1_0_0_n_n_wf : DotDims.WF S8192x256 S8192x256 S8192x8192 [1] [1] [0] [0] [] []
  gather_S8192x8192_S8192x1x1_S8192x1_n_1_0_0_1_2_11_wf : GatherDims.WF S8192x8192 S8192x1x1 S8192x1 [] [1] [0] [1] [0] 2 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.BitsNormBody.lean ====
/-
  The first kernel region (row normalization), at any float instance: what its body leaves in the output's staging
  buffer as a function of the input's, and the body's triple.

  The body reads its whole 1024 x 256 input block, and stores over the whole 1024 x 256 output block the rows of the
  input each divided by its clamped length (the stored value is the generated payload term `k0_pay1` of the loaded block).
-/
import proofs.«157822_j81604378624062_1_alg».proof.Proof.Gen.Kernel.Launch
import proofs.«157822_j81604378624062_1_alg».proof.Proof.Gen.Kernel.Skeleton
import proofs.«157822_j81604378624062_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle both accesses of the body use: the whole 1024 x 256 block. -/
abbrev wholeBlock : Rect S1024x256 := Rect.unit (s := S1024x256) ![0, 0] S1024x256.size inb_S1024x256_S1024x256_0_0

/-- The output's staging buffer after the body, from the input block `x`: its one store, as a piece list. -/
def stored (x : Vec F S1024x256 .f32) : Vec F S1024x256 .bf16 :=
  View.canon [⟨wholeBlock, k0_pay1 (View.ld x wholeBlock)⟩]

/-- The one store tiles the buffer, so it covers every index. -/
theorem stored_cover (p : Vec F S1024x256 .bf16) (y : S1024x256.Idx) :
    ∃ pc ∈ ([⟨wholeBlock, p⟩] : List (View.Piece (Elt F) S1024x256 .bf16)), y ∈ pc.1.set :=
  View.cover_of_tiled [⟨wholeBlock, p⟩] S1024x256.size (by rfl) y

set_option maxHeartbeats 1000000 in
/-- The body on whole staging buffers, the input's at `x` and the output's at anything, runs to its return leaving
    the input's as it was and the output's at `stored x`. -/
theorem body_triple (c : Dev nD) (E : Set ℕ) (i : grid0.Coords)
    (a1 : Memref sig .tc .vmem S1024x256 .f32) (h1 : a1.IsWhole) (a2 : Memref sig .tc .vmem S1024x256 .bf16) (h2 : a2.IsWhole)
    (x : Vec F S1024x256 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (stored x)) -∗ K ⟨⟩))
      ⊢ wp frame (wpE (defs₀ (F := F)) Variants.none c none) E (cc0__normalize_kernel i a1 h1 a2 h2) K := by
  simp only [cc0__normalize_kernel_eq_skeleton]; unfold cc0__normalize_kernel_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (stored_cover _)

end Cert.Kernel.Norm

end
-- ==== Proof.BitsNormData.lean ====
/-
  The first kernel region (row normalization): the pipeline's proof data at the contents `V` the region is entered
  from, and the body obligation at every grid point.

  The grid has 8 points; at point t the input window's block is rows 1024 t .. 1024 t + 1023 of the stacked array, and
  the output window's block the same rows of the normalized array. After the body the input's staging buffer still
  holds its block and the output's holds the block's rows normalized (`stored`).
-/
import proofs.«157822_j81604378624062_1_alg».proof.Proof.Gen.Kernel.Launch
import proofs.«157822_j81604378624062_1_alg».proof.Proof.Gen.Kernel.Skeleton
import proofs.«157822_j81604378624062_1_alg».proof.Proof.Gen.Kernel.Points
import proofs.«157822_j81604378624062_1_alg».proof.Proof.BitsNormBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as found; after the body at point `t` the input's buffer at its block and the output's
    at the normalized block; the invariant the scoped rest and the generator register; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => stored (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]
theorem dat_after_in (c : Dev nD) (t : Fin cfg0.N) : (dat V c).after 0 t = blockAt V c 0 t := by dsimp only [dat]
theorem dat_after_out (c : Dev nD) (t : Fin cfg0.N) : (dat V c).after 1 t = stored (blockAt V c 0 t) := by dsimp only [dat]

/-- The input's current staging buffer holds its block at every point (it is fetched at every point). -/
theorem dat_before_in (c : Dev nD) (t : Fin cfg0.N) (d) : (dat V c).before 0 t d = blockAt V c 0 t :=
  ((dat V c).before_in_eq_fetched 0 rfl (fun _ => rfl) (fun _ _ _ => rfl)
      (fun t => by rw [dat_after_in]; unfold Dat.blockOf blockAt; rw [dat_A]; try rfl) t d).trans
    (by unfold Dat.fetched Dat.blockOf blockAt; rw [dat_A]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's buffer holds its block, so the body's triple applies; the invariant and the
    core's dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).Φ t.succ = (dat V c).Φ t.castSucc from rfl,
    show (dat V c).owesAt () t.succ = (dat V c).owesAt () t.castSucc from rfl,
    dat_after_in, dat_after_out]
  iintro ⟨HΦ, Ho, ⟨%d0, H0⟩, ⟨%d1, H1⟩⟩
  iapply (body_triple c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact body_at V c t

end Cert.Kernel.Norm

end
-- ==== Proof.BitsRowBody.lean ====
/-
  The second kernel region (row losses), at any float instance: what its body leaves in the output's staging buffer
  as a function of its two inputs', and the body's triple.

  The body reads its 128 x 256 block of normalized rows and the whole 8192 x 256 normalized array, and stores over the
  whole 128 x 1 output block the losses of the block's 128 rows (the stored value is the generated payload term
  `k1_pay1` of the grid coordinates and the two loaded blocks).
-/
import proofs.«157822_j81604378624062_1_alg».proof.Proof.Gen.Kernel.Launch
import proofs.«157822_j81604378624062_1_alg».proof.Proof.Gen.Kernel.Skeleton
import proofs.«157822_j81604378624062_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowLoss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles of the body's accesses: each buffer whole. -/
abbrev rowsBlock : Rect S128x256 := Rect.unit (s := S128x256) ![0, 0] S128x256.size inb_S128x256_S128x256_0_0
abbrev allRows : Rect S8192x256 := Rect.unit (s := S8192x256) ![0, 0] S8192x256.size inb_S8192x256_S8192x256_0_0
abbrev lossBlock : Rect S128x1 := Rect.unit (s := S128x1) ![0, 0] S128x1.size inb_S128x1_S128x1_0_0

/-- The output's staging buffer after the body at grid coordinates `i`, from the two input blocks: its one store,
    as a piece list. -/
def stored (i : grid1.Coords) (x : Vec F S128x256 .bf16) (y : Vec F S8192x256 .bf16) : Vec F S128x1 .f32 :=
  View.canon [⟨lossBlock, k1_pay1 i (View.ld x rowsBlock) (View.ld y allRows)⟩]

/-- The one store tiles the buffer, so it covers every index. -/
theorem stored_cover (p : Vec F S128x1 .f32) (y : S128x1.Idx) :
    ∃ pc ∈ ([⟨lossBlock, p⟩] : List (View.Piece (Elt F) S128x1 .f32)), y ∈ pc.1.set :=
  View.cover_of_tiled [⟨lossBlock, p⟩] S128x1.size (by rfl) y

set_option maxHeartbeats 1000000 in
/-- The body on whole staging buffers, the inputs' at `x` and `y` and the output's at anything, runs to its return
    leaving the inputs' as they were and the output's at `stored i x y`. -/
theorem body_triple (c : Dev nD) (E : Set ℕ) (i : grid1.Coords)
    (a1 : Memref sig .tc .vmem S128x256 .bf16) (h1 : a1.IsWhole) (a2 : Memref sig .tc .vmem S8192x256 .bf16) (h2 : a2.IsWhole)
    (a3 : Memref sig .tc .vmem S128x1 .f32) (h3 : a3.IsWhole)
    (x : Vec F S128x256 .bf16) (y : Vec F S8192x256 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (stored i x y)) -∗ K ⟨⟩))
      ⊢ wp frame (wpE (defs₀ (F := F)) Variants.none c none) E (cc1__row_loss_kernel i a1 h1 a2 h2 a3 h3) K := by
  simp only [cc1__row_loss_kernel_eq_skeleton]; unfold cc1__row_loss_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

end Cert.Kernel.RowLoss

end
-- ==== Proof.BitsRowData.lean ====
/-
  The second kernel region (row losses): the pipeline's proof data at the contents `V` the region is entered from,
  and the body obligation at every grid point.

  The grid has 64 points; at point t the first window's block is rows 128 t .. 128 t + 127 of the normalized array,
  the second window's block the whole normalized array (fetched once, at the first point), and the output window's
  block rows 128 t .. 128 t + 127 of the 8192 x 1 array of row losses. The first two windows read ONE array, so each
  holds it at half the full share; the output's array is held at the full share.
-/
import proofs.«157822_j81604378624062_1_alg».proof.Proof.Gen.Kernel.Launch
import proofs.«157822_j81604378624062_1_alg».proof.Proof.Gen.Kernel.Skeleton
import proofs.«157822_j81604378624062_1_alg».proof.Proof.Gen.Kernel.Points
import proofs.«157822_j81604378624062_1_alg».proof.Proof.BitsRowBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowLoss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The shares the windows hold their arrays at: the two readers of the normalized array one half each. -/
def shareOf : Fin cfg1.W → PosShare TreeShare
  | ⟨0, _⟩ => fullShare.left
  | ⟨1, _⟩ => fullShare.right
  | _ => fullShare

/-- The proof data: the arrays as found; after the body at point `t` each input's buffer at its block and the
    output's at the block's row losses; the invariant the scoped rest and the generator register; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => stored (grid1.coords t) (blockAt V c 0 t) (blockAt V c 1 t)
  Φ _ := Pipeline.ΦA spec1 c
  q := shareOf
  owed _ := 0

theorem dat_A (c : Dev nD) (w : Fin cfg1.W) : (dat V c).A w = V c (Pipeline.arrRef spec1 w) := by
  dsimp only [dat]
theorem dat_after_rows (c : Dev nD) (t : Fin cfg1.N) : (dat V c).after 0 t = blockAt V c 0 t := by dsimp only [dat]
theorem dat_after_all (c : Dev nD) (t : Fin cfg1.N) : (dat V c).after 1 t = blockAt V c 1 t := by dsimp only [dat]
theorem dat_after_out (c : Dev nD) (t : Fin cfg1.N) :
    (dat V c).after 2 t = stored (grid1.coords t) (blockAt V c 0 t) (blockAt V c 1 t) := by dsimp only [dat]

/-- Each input's current staging buffer holds its block at every point, fetched there or not. -/
theorem dat_before_rows (c : Dev nD) (t : Fin cfg1.N) (d) : (dat V c).before 0 t d = blockAt V c 0 t :=
  ((dat V c).before_in_eq_fetched 0 rfl (fun _ => rfl) (fun _ _ _ => rfl)
      (fun t => by rw [dat_after_rows]; unfold Dat.blockOf blockAt; rw [dat_A]; try rfl) t d).trans
    (by unfold Dat.fetched Dat.blockOf blockAt; rw [dat_A]; try rfl)
theorem dat_before_all (c : Dev nD) (t : Fin cfg1.N) (d) : (dat V c).before 1 t d = blockAt V c 1 t :=
  ((dat V c).before_in_eq_fetched 1 rfl (fun _ => rfl) (fun _ _ _ => rfl)
      (fun t => by rw [dat_after_all]; unfold Dat.blockOf blockAt; rw [dat_A]; try rfl) t d).trans
    (by unfold Dat.fetched Dat.blockOf blockAt; rw [dat_A]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the body's triple applies; the invariant and the
    core's dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_rows, dat_before_all]
  rw [show (dat V c).Φ t.succ = (dat V c).Φ t.castSucc from rfl,
    show (dat V c).owesAt () t.succ = (dat V c).owesAt () t.castSucc from rfl,
    dat_after_rows, dat_after_all, dat_after_out]
  iintro ⟨HΦ, Ho, ⟨%d0, H0⟩, ⟨%d1, H1⟩, ⟨%d2, H2⟩⟩
  iapply (body_triple c Set.univ (grid1.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact body_at V c t

end Cert.Kernel.RowLoss

end
-- ==== Proof.BitsWholeState.lean ====
/-
  The program's buffer contents at each boundary between its four items — the stacking of the two arguments on the
  host, the normalization region, the row-loss region, the host's sum and division — as a fold from the launch
  memory, and the two regions' proof data each at the contents its region is entered from.
-/
import proofs.«157822_j81604378624062_1_alg».proof.Proof.BitsNormData
import proofs.«157822_j81604378624062_1_alg».proof.Proof.BitsRowData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host stacks the two arguments (the normalization region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the normalization region: its output array at what its write-backs leave, every other buffer as entered. -/
def W2 (c : Dev nD) : Valuation τ sig (Elt F) :=
  Pipeline.withArrays spec0 c (W1 m c) fun w => (Norm.dat (V1 m) c).arrAt w cfg0.N
theorem W2_arr (c : Dev nD) (w : Fin cfg0.W) :
    W2 m c (Proc.devRef .tc (Pipeline.arrRef spec0 w)) = (Norm.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (Norm.dat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the row-loss region: the array of row losses at what its write-backs leave, every other buffer as entered. -/
def W3 (c : Dev nD) : Valuation τ sig (Elt F) :=
  Function.update (W2 m c) (Proc.devRef .tc main_v2) ((RowLoss.dat (V2 m) c).arrAt 2 cfg1.N)
abbrev V3 : (c : Dev nD) → (b : Ref sig .tc) → Buf (Elt F) ((c : Thread nD τ).loc b) := fun c b => W3 m c b
theorem W3_out (c : Dev nD) : V3 m c main_v2 = (RowLoss.dat (V2 m) c).arrAt 2 cfg1.N := by
  unfold V3 W3; exact Function.update_self ..
theorem W3_of_ne (c : Dev nD) (b : Ref sig .tc) (hb : b ≠ main_v2) : V3 m c b = V2 m c b := by
  unfold V3 W3
  exact Function.update_of_ne (StableHlo.devRef_ne_of_ne hb : (Proc.devRef .tc b : DevRef τ sig) ≠ Proc.devRef .tc main_v2) _ _
/-- After the host's sum and division: the end. -/
abbrev W4 : Dev nD → Valuation τ sig (Elt F) := fun c => StableHlo.after hostOps2 (W3 m c)

/-- The prefetched tables' admissible contents: no pallas_call has a table. -/
abbrev adm : (p : Fin 2) → (pcfgs (F := F) p).Adm := fun p => (cfgs p).toPCfg_adm
/-- Each pipeline's proof data at its region's entry contents (a literal match on the pipeline's number). -/
def pdats : (p : Fin 2) → (c : Dev nD) → Dat τ (Elt F) Unit ℕ (UR sig nD τ) ℕ (Pipeline.pin (pcfgs (F := F)) adm p) c
  | ⟨0, _⟩ => fun c => Norm.dat (V1 m) c
  | ⟨1, _⟩ => fun c => RowLoss.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.Kernel.Whole

end
-- ==== Proof.BitsWholeNorm.lean ====
/-
  The normalization region as an item of the program: entered from every unscoped buffer held at the contents after
  the host's stacking, left with them held at the contents that have the normalized array written. Its two arrays are
  distinct buffers, split out of the unscoped buffers on entry and put back on exit; the generator register passes
  through the region's invariant; nothing is owed; the kernel has no semaphore of its own.
-/
import proofs.«157822_j81604378624062_1_alg».proof.Proof.BitsWholeState
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Whole

end
-- ==== Proof.BitsRowShares.lean ====
/-
  The row-loss region's arrays among the core's unscoped buffers, when two of its windows read ONE array.

  On entry the buffers behind the region's arrays — the normalized array and the array of row losses, each held whole at
  the full share — become the region's three windowed arrays: the normalized array's full share splits into two halves,
  one per reading window. On exit the two halves, both still at the entry contents (an input window's array is never
  written), join back into the full share, and the array of row losses is held at what the write-backs left.
-/
import proofs.«157822_j81604378624062_1_alg».proof.Proof.Gen.Kernel.Launch
import proofs.«157822_j81604378624062_1_alg».proof.Proof.Gen.Kernel.Skeleton
import proofs.«157822_j81604378624062_1_alg».proof.Proof.Gen.Kernel.Points
import proofs.«157822_j81604378624062_1_alg».proof.Proof.BitsRowData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RowLoss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the unscoped buffers at `V` are the region's arrays at their entry contents and the unscoped rest. -/
theorem arrays_in (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs Dat.arrays
  rw [bigSep_W1]
  rw [show Finset.univ.image (Pipeline.arrRef (cfgs 1).spec) = {main_v1, main_v2} from by decide]
  rw [bigSep_insert (by decide), bigSep_singleton]
  rw [(arr_whole1 0).set_eq_univ, (arr_whole1 2).set_eq_univ]
  have s0 : (dat V c).share 0 = fullShare.left := rfl
  have s1 : (dat V c).share 1 = fullShare.right := rfl
  have s2 : (dat V c).share 2 = fullShare := rfl
  rw [s0, s1, s2]
  show iprop((c.tc.loc main_v1 ↦{fullShare} V c main_v1) ∗ (c.tc.loc main_v2 ↦{fullShare} V c main_v2))
    ⊢ (iprop((c.tc.loc main_v1 ↦{fullShare.left} V c main_v1) ∗ (c.tc.loc main_v1 ↦{fullShare.right} V c main_v1)
        ∗ (c.tc.loc main_v2 ↦{fullShare} V c main_v2)) : sProp 𝕄)
  iintro ⟨H1, H2⟩
  ihave H := (pointsTo_share (PosShare.mem_left_op_right fullShare)).1 $$ H1
  icases H with ⟨Ha, Hb⟩
  isplitl [Ha]; · iexact Ha
  isplitl [Hb]; · iexact Hb
  iexact H2

/-- EXIT: the region's arrays at their final contents and the unscoped rest at `V` are the unscoped buffers at any `V'`
    that has the array of row losses at what the write-backs left and agrees with `V` elsewhere. -/
theorem arrays_out (c : Dev nD) (V' : (b : Ref sig .tc) → Buf (Elt F) ((c : Thread nD τ).loc b))
    (hout : V' main_v2 = (dat V c).arrAt 2 cfg1.N) (hrest : ∀ b, b ≠ main_v2 → V' b = V c b) :
    iprop((dat V c).arrays ((dat V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono ?_ (Entails.of_eq ?_)
  · unfold Pipeline.arrBufs Dat.arrays
    rw [bigSep_W1]
    rw [show Finset.univ.image (Pipeline.arrRef (cfgs 1).spec) = {main_v1, main_v2} from by decide]
    rw [bigSep_insert (by decide), bigSep_singleton]
    rw [(arr_whole1 0).set_eq_univ, (arr_whole1 2).set_eq_univ]
    have s0 : (dat V c).share 0 = fullShare.left := rfl
    have s1 : (dat V c).share 1 = fullShare.right := rfl
    have s2 : (dat V c).share 2 = fullShare := rfl
    rw [s0, s1, s2]
    have a0 : (dat V c).arrAt 0 cfg1.N = V c main_v1 := ((dat V c).arrAt_in 0 rfl _).trans (dat_A V c 0)
    have a1 : (dat V c).arrAt 1 cfg1.N = V c main_v1 := ((dat V c).arrAt_in 1 rfl _).trans (dat_A V c 1)
    rw [hrest main_v1 (by decide), hout]
    show (iprop((c.tc.loc main_v1 ↦{fullShare.left} (dat V c).arrAt 0 cfg1.N) ∗ (c.tc.loc main_v1 ↦{fullShare.right} (dat V c).arrAt 1 cfg1.N)
        ∗ (c.tc.loc main_v2 ↦{fullShare} (dat V c).arrAt 2 cfg1.N)) : sProp 𝕄)
      ⊢ iprop((c.tc.loc main_v1 ↦{fullShare} V c main_v1) ∗ (c.tc.loc main_v2 ↦{fullShare} (dat V c).arrAt 2 cfg1.N))
    rw [a0, a1]
    iintro ⟨Ha, Hb, H2⟩
    isplitl [Ha Hb]
    · iapply (pointsTo_share (PosShare.mem_left_op_right fullShare)).2
      isplitl [Ha] <;> iassumption
    iexact H2
  · unfold Pipeline.unscopedRest
    exact bigSep_congr fun b hb => by
      rw [hrest b fun h => (Finset.mem_sdiff.mp hb).2 (h ▸ Finset.mem_image.mpr ⟨2, Finset.mem_univ _, rfl⟩)]

end Cert.Kernel.RowLoss

end
-- ==== Proof.BitsWholeRow.lean ====
/-
  The row-loss region as an item of the program: entered from every unscoped buffer held at the contents the
  normalization region left, left with them held at the contents that have the array of row losses written. Two of its
  windows read the normalized array: on entry that array's full share is split between them and on exit joined back
  (the entry and exit lemmas of the region's proof data); the generator register passes through the region's invariant;
  nothing is owed; the kernel has no semaphore of its own.
-/
import proofs.«157822_j81604378624062_1_alg».proof.Proof.BitsWholeState
import proofs.«157822_j81604378624062_1_alg».proof.Proof.BitsRowShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (RowLoss.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := RowLoss.arrays_in (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := RowLoss.arrays_out (V2 m) c (V3 m c) (W3_out m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Whole

end
-- ==== Proof.BitsWholeRun.lean ====
/-
  The program's run: its four items as segments, and the launch. Every weakly fair execution from any memory with
  zero counters terminates, nothing faulting, and in the final memory every unscoped buffer of every core holds the
  last boundary's contents `W4` — the launch contents pushed through the host's stacking, the two regions' write-backs,
  and the host's sum and division.
-/
import proofs.«157822_j81604378624062_1_alg».proof.Proof.BitsWholeNorm
import proofs.«157822_j81604378624062_1_alg».proof.Proof.BitsWholeRow
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the program allocates a buffer. -/
theorem stack_fresh : (hostOps0 : List (HloOp τ sig (Elt F))).Forall fun op => op.fresh = ∅ := by
  simp only [List.Forall]; repeat' constructor
theorem tail_fresh : (hostOps2 : List (HloOp τ sig (Elt F))).Forall fun op => op.fresh = ∅ := by
  simp only [List.Forall]; repeat' constructor

/-- The program's four segments in order. -/
abbrev segs : List (Pipeline.Seg (pcfgs (F := F)) adm (pdats m) () defs₀ 𝒱₀ L lv) :=
  [ .host (hseg hostOps0 hostOps0_sub stack_fresh (W0 m)),
    .region (reg0 m),
    .region (reg1 m),
    .host (hseg hostOps2 hostOps2_sub tail_fresh (W3 m)) ]

/-- The program IS the run of the segments. -/
theorem main_run (c : Dev nD) : main (F := F) c = Pipeline.Seg.run (segs m) := (main_chain c).trans (by chain_rfl)

/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Whole

end
-- ==== Proof.BitsWholeFrame.lean ====
/-
  The program's frame: it runs to the end without a fault and both argument arrays end as launched — no host
  operation and neither region writes an argument, so the last boundary's contents at an argument walk back through the
  four items to the launch memory.
-/
import proofs.«157822_j81604378624062_1_alg».proof.Proof.BitsWholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference that neither the stacking nor the host tail writes, and that is neither region's output array, holds at
    the end what it held at launch. -/
theorem W4_untouched (c : Dev nD) (b : Ref sig .tc) (h0 : b ≠ main_v0) (h1 : b ≠ main_v1) (h2 : b ≠ main_v2)
    (h3 : b ≠ main_cst) (h4 : b ≠ main_v3) (h5 : b ≠ main_cst_0) (h6 : b ≠ main_v4) :
    W4 m c (Proc.devRef .tc b) = m ((c : Thread nD τ).loc b) :=
  calc W4 m c (Proc.devRef .tc b)
    _ = W3 m c (Proc.devRef .tc b) := StableHlo.after_of_forall_not_mem (b := Proc.devRef .tc b) _ _ (List.forall_iff_forall_mem.mp (by
          simp only [hostOps2, List.Forall, StableHlo.nullary_writes, StableHlo.unary_writes, StableHlo.binary_writes, Finset.mem_singleton]
          exact ⟨StableHlo.devRef_ne_of_ne h3, StableHlo.devRef_ne_of_ne h4, StableHlo.devRef_ne_of_ne h5, StableHlo.devRef_ne_of_ne h6⟩))
    _ = W2 m c (Proc.devRef .tc b) := W3_of_ne m c b h2
    _ = W1 m c (Proc.devRef .tc b) := W2_of_ne m c b (fun w => by fin_cases w; exact fun e => h0 e.symm; exact fun e => h1 e.symm)
    _ = W0 m c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, Finset.mem_singleton]
          exact StableHlo.devRef_ne_of_ne h0))
    _ = m ((c : Thread nD τ).loc b) := rfl

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W4_untouched m c main_arg0 (by decide) (by decide) (by decide) (by decide) (by decide) (by decide) (by decide)),
       (h c _ (mem_uc main_arg1 (by decide))).trans (W4_untouched m c main_arg1 (by decide) (by decide) (by decide) (by decide) (by decide) (by decide) (by decide))⟩)
    (run m ρ)

end Cert.Kernel.Whole

end
-- ==== Proof.NormBody.lean ====
/-
  The first kernel region (row normalization), at any float instance: what its body leaves in the output's staging
  buffer as a function of the input's, and the body's triple.

  The body reads its whole 1024 x 256 input block, and stores over the whole 1024 x 256 output block the rows of the
  input each divided by its clamped length (the stored value is the generated payload term `k0_pay1` of the loaded block).
-/
import proofs.«157822_j81604378624062_1_alg».proof.Proof.Gen.KernelIdeal.Launch
import proofs.«157822_j81604378624062_1_alg».proof.Proof.Gen.KernelIdeal.Skeleton
import proofs.«157822_j81604378624062_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle both accesses of the body use: the whole 1024 x 256 block. -/
abbrev wholeBlock : Rect S1024x256 := Rect.unit (s := S1024x256) ![0, 0] S1024x256.size inb_S1024x256_S1024x256_0_0

/-- The output's staging buffer after the body, from the input block `x`: its one store, as a piece list. -/
def stored (x : Vec F S1024x256 .f32) : Vec F S1024x256 .bf16 :=
  View.canon [⟨wholeBlock, k0_pay1 (View.ld x wholeBlock)⟩]

/-- The one store tiles the buffer, so it covers every index. -/
theorem stored_cover (p : Vec F S1024x256 .bf16) (y : S1024x256.Idx) :
    ∃ pc ∈ ([⟨wholeBlock, p⟩] : List (View.Piece (Elt F) S1024x256 .bf16)), y ∈ pc.1.set :=
  View.cover_of_tiled [⟨wholeBlock, p⟩] S1024x256.size (by rfl) y

set_option maxHeartbeats 1000000 in
/-- The body on whole staging buffers, the input's at `x` and the output's at anything, runs to its return leaving
    the input's as it was and the output's at `stored x`. -/
theorem body_triple (c : Dev nD) (E : Set ℕ) (i : grid0.Coords)
    (a1 : Memref sig .tc .vmem S1024x256 .f32) (h1 : a1.IsWhole) (a2 : Memref sig .tc .vmem S1024x256 .bf16) (h2 : a2.IsWhole)
    (x : Vec F S1024x256 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (stored x)) -∗ K ⟨⟩))
      ⊢ wp frame (wpE (defs₀ (F := F)) Variants.none c none) E (cc0__normalize_kernel i a1 h1 a2 h2) K := by
  simp only [cc0__normalize_kernel_eq_skeleton]; unfold cc0__normalize_kernel_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (stored_cover _)

end Cert.KernelIdeal.Norm

end
-- ==== Proof.NormData.lean ====
/-
  The first kernel region (row normalization): the pipeline's proof data at the contents `V` the region is entered
  from, and the body obligation at every grid point.

  The grid has 8 points; at point t the input window's block is rows 1024 t .. 1024 t + 1023 of the stacked array, and
  the output window's block the same rows of the normalized array. After the body the input's staging buffer still
  holds its block and the output's holds the block's rows normalized (`stored`).
-/
import proofs.«157822_j81604378624062_1_alg».proof.Proof.Gen.KernelIdeal.Launch
import proofs.«157822_j81604378624062_1_alg».proof.Proof.Gen.KernelIdeal.Skeleton
import proofs.«157822_j81604378624062_1_alg».proof.Proof.Gen.KernelIdeal.Points
import proofs.«157822_j81604378624062_1_alg».proof.Proof.NormBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as found; after the body at point `t` the input's buffer at its block and the output's
    at the normalized block; the invariant the scoped rest and the generator register; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => stored (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]
theorem dat_after_in (c : Dev nD) (t : Fin cfg0.N) : (dat V c).after 0 t = blockAt V c 0 t := by dsimp only [dat]
theorem dat_after_out (c : Dev nD) (t : Fin cfg0.N) : (dat V c).after 1 t = stored (blockAt V c 0 t) := by dsimp only [dat]

/-- The input's current staging buffer holds its block at every point (it is fetched at every point). -/
theorem dat_before_in (c : Dev nD) (t : Fin cfg0.N) (d) : (dat V c).before 0 t d = blockAt V c 0 t :=
  ((dat V c).before_in_eq_fetched 0 rfl (fun _ => rfl) (fun _ _ _ => rfl)
      (fun t => by rw [dat_after_in]; unfold Dat.blockOf blockAt; rw [dat_A]; try rfl) t d).trans
    (by unfold Dat.fetched Dat.blockOf blockAt; rw [dat_A]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's buffer holds its block, so the body's triple applies; the invariant and the
    core's dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).Φ t.succ = (dat V c).Φ t.castSucc from rfl,
    show (dat V c).owesAt () t.succ = (dat V c).owesAt () t.castSucc from rfl,
    dat_after_in, dat_after_out]
  iintro ⟨HΦ, Ho, ⟨%d0, H0⟩, ⟨%d1, H1⟩⟩
  iapply (body_triple c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact body_at V c t

end Cert.KernelIdeal.Norm

end
-- ==== Proof.RowBody.lean ====
/-
  The second kernel region (row losses), at any float instance: what its body leaves in the output's staging buffer
  as a function of its two inputs', and the body's triple.

  The body reads its 128 x 256 block of normalized rows and the whole 8192 x 256 normalized array, and stores over the
  whole 128 x 1 output block the losses of the block's 128 rows (the stored value is the generated payload term
  `k1_pay1` of the grid coordinates and the two loaded blocks).
-/
import proofs.«157822_j81604378624062_1_alg».proof.Proof.Gen.KernelIdeal.Launch
import proofs.«157822_j81604378624062_1_alg».proof.Proof.Gen.KernelIdeal.Skeleton
import proofs.«157822_j81604378624062_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowLoss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles of the body's accesses: each buffer whole. -/
abbrev rowsBlock : Rect S128x256 := Rect.unit (s := S128x256) ![0, 0] S128x256.size inb_S128x256_S128x256_0_0
abbrev allRows : Rect S8192x256 := Rect.unit (s := S8192x256) ![0, 0] S8192x256.size inb_S8192x256_S8192x256_0_0
abbrev lossBlock : Rect S128x1 := Rect.unit (s := S128x1) ![0, 0] S128x1.size inb_S128x1_S128x1_0_0

/-- The output's staging buffer after the body at grid coordinates `i`, from the two input blocks: its one store,
    as a piece list. -/
def stored (i : grid1.Coords) (x : Vec F S128x256 .bf16) (y : Vec F S8192x256 .bf16) : Vec F S128x1 .f32 :=
  View.canon [⟨lossBlock, k1_pay1 i (View.ld x rowsBlock) (View.ld y allRows)⟩]

/-- The one store tiles the buffer, so it covers every index. -/
theorem stored_cover (p : Vec F S128x1 .f32) (y : S128x1.Idx) :
    ∃ pc ∈ ([⟨lossBlock, p⟩] : List (View.Piece (Elt F) S128x1 .f32)), y ∈ pc.1.set :=
  View.cover_of_tiled [⟨lossBlock, p⟩] S128x1.size (by rfl) y

set_option maxHeartbeats 1000000 in
/-- The body on whole staging buffers, the inputs' at `x` and `y` and the output's at anything, runs to its return
    leaving the inputs' as they were and the output's at `stored i x y`. -/
theorem body_triple (c : Dev nD) (E : Set ℕ) (i : grid1.Coords)
    (a1 : Memref sig .tc .vmem S128x256 .bf16) (h1 : a1.IsWhole) (a2 : Memref sig .tc .vmem S8192x256 .bf16) (h2 : a2.IsWhole)
    (a3 : Memref sig .tc .vmem S128x1 .f32) (h3 : a3.IsWhole)
    (x : Vec F S128x256 .bf16) (y : Vec F S8192x256 .bf16) (K : PUnit → sProp 𝕄) :
    iprop(owns (c : Thread nD τ) a1 fullShare x ∗ owns (c : Thread nD τ) a2 fullShare y ∗ (∃ d, owns (c : Thread nD τ) a3 fullShare d)
        ∗ (iprop(owns (c : Thread nD τ) a1 fullShare x ∗ owns (c : Thread nD τ) a2 fullShare y
            ∗ owns (c : Thread nD τ) a3 fullShare (stored i x y)) -∗ K ⟨⟩))
      ⊢ wp frame (wpE (defs₀ (F := F)) Variants.none c none) E (cc1__row_loss_kernel i a1 h1 a2 h2 a3 h3) K := by
  simp only [cc1__row_loss_kernel_eq_skeleton]; unfold cc1__row_loss_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

end Cert.KernelIdeal.RowLoss

end
-- ==== Proof.RowData.lean ====
/-
  The second kernel region (row losses): the pipeline's proof data at the contents `V` the region is entered from,
  and the body obligation at every grid point.

  The grid has 64 points; at point t the first window's block is rows 128 t .. 128 t + 127 of the normalized array,
  the second window's block the whole normalized array (fetched once, at the first point), and the output window's
  block rows 128 t .. 128 t + 127 of the 8192 x 1 array of row losses. The first two windows read ONE array, so each
  holds it at half the full share; the output's array is held at the full share.
-/
import proofs.«157822_j81604378624062_1_alg».proof.Proof.Gen.KernelIdeal.Launch
import proofs.«157822_j81604378624062_1_alg».proof.Proof.Gen.KernelIdeal.Skeleton
import proofs.«157822_j81604378624062_1_alg».proof.Proof.Gen.KernelIdeal.Points
import proofs.«157822_j81604378624062_1_alg».proof.Proof.RowBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowLoss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The shares the windows hold their arrays at: the two readers of the normalized array one half each. -/
def shareOf : Fin cfg1.W → PosShare TreeShare
  | ⟨0, _⟩ => fullShare.left
  | ⟨1, _⟩ => fullShare.right
  | _ => fullShare

/-- The proof data: the arrays as found; after the body at point `t` each input's buffer at its block and the
    output's at the block's row losses; the invariant the scoped rest and the generator register; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => stored (grid1.coords t) (blockAt V c 0 t) (blockAt V c 1 t)
  Φ _ := Pipeline.ΦA spec1 c
  q := shareOf
  owed _ := 0

theorem dat_A (c : Dev nD) (w : Fin cfg1.W) : (dat V c).A w = V c (Pipeline.arrRef spec1 w) := by
  dsimp only [dat]
theorem dat_after_rows (c : Dev nD) (t : Fin cfg1.N) : (dat V c).after 0 t = blockAt V c 0 t := by dsimp only [dat]
theorem dat_after_all (c : Dev nD) (t : Fin cfg1.N) : (dat V c).after 1 t = blockAt V c 1 t := by dsimp only [dat]
theorem dat_after_out (c : Dev nD) (t : Fin cfg1.N) :
    (dat V c).after 2 t = stored (grid1.coords t) (blockAt V c 0 t) (blockAt V c 1 t) := by dsimp only [dat]

/-- Each input's current staging buffer holds its block at every point, fetched there or not. -/
theorem dat_before_rows (c : Dev nD) (t : Fin cfg1.N) (d) : (dat V c).before 0 t d = blockAt V c 0 t :=
  ((dat V c).before_in_eq_fetched 0 rfl (fun _ => rfl) (fun _ _ _ => rfl)
      (fun t => by rw [dat_after_rows]; unfold Dat.blockOf blockAt; rw [dat_A]; try rfl) t d).trans
    (by unfold Dat.fetched Dat.blockOf blockAt; rw [dat_A]; try rfl)
theorem dat_before_all (c : Dev nD) (t : Fin cfg1.N) (d) : (dat V c).before 1 t d = blockAt V c 1 t :=
  ((dat V c).before_in_eq_fetched 1 rfl (fun _ => rfl) (fun _ _ _ => rfl)
      (fun t => by rw [dat_after_all]; unfold Dat.blockOf blockAt; rw [dat_A]; try rfl) t d).trans
    (by unfold Dat.fetched Dat.blockOf blockAt; rw [dat_A]; try rfl)

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so the body's triple applies; the invariant and the
    core's dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_rows, dat_before_all]
  rw [show (dat V c).Φ t.succ = (dat V c).Φ t.castSucc from rfl,
    show (dat V c).owesAt () t.succ = (dat V c).owesAt () t.castSucc from rfl,
    dat_after_rows, dat_after_all, dat_after_out]
  iintro ⟨HΦ, Ho, ⟨%d0, H0⟩, ⟨%d1, H1⟩, ⟨%d2, H2⟩⟩
  iapply (body_triple c Set.univ (grid1.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact body_at V c t

end Cert.KernelIdeal.RowLoss

end
-- ==== Proof.WholeState.lean ====
/-
  The program's buffer contents at each boundary between its four items — the stacking of the two arguments on the
  host, the normalization region, the row-loss region, the host's sum and division — as a fold from the launch
  memory, and the two regions' proof data each at the contents its region is entered from.
-/
import proofs.«157822_j81604378624062_1_alg».proof.Proof.NormData
import proofs.«157822_j81604378624062_1_alg».proof.Proof.RowData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host stacks the two arguments (the normalization region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the normalization region: its output array at what its write-backs leave, every other buffer as entered. -/
def W2 (c : Dev nD) : Valuation τ sig (Elt F) :=
  Pipeline.withArrays spec0 c (W1 m c) fun w => (Norm.dat (V1 m) c).arrAt w cfg0.N
theorem W2_arr (c : Dev nD) (w : Fin cfg0.W) :
    W2 m c (Proc.devRef .tc (Pipeline.arrRef spec0 w)) = (Norm.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0_arr (c : Dev nD) (w : Fin cfg0.W) : (Norm.dat (V1 m) c).arrAt w cfg0.N = V2 m c (Pipeline.arrRef spec0 w) :=
  (W2_arr m c w).symm
theorem exit0_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the row-loss region: the array of row losses at what its write-backs leave, every other buffer as entered. -/
def W3 (c : Dev nD) : Valuation τ sig (Elt F) :=
  Function.update (W2 m c) (Proc.devRef .tc main_v2) ((RowLoss.dat (V2 m) c).arrAt 2 cfg1.N)
abbrev V3 : (c : Dev nD) → (b : Ref sig .tc) → Buf (Elt F) ((c : Thread nD τ).loc b) := fun c b => W3 m c b
theorem W3_out (c : Dev nD) : V3 m c main_v2 = (RowLoss.dat (V2 m) c).arrAt 2 cfg1.N := by
  unfold V3 W3; exact Function.update_self ..
theorem W3_of_ne (c : Dev nD) (b : Ref sig .tc) (hb : b ≠ main_v2) : V3 m c b = V2 m c b := by
  unfold V3 W3
  exact Function.update_of_ne (StableHlo.devRef_ne_of_ne hb : (Proc.devRef .tc b : DevRef τ sig) ≠ Proc.devRef .tc main_v2) _ _
/-- After the host's sum and division: the end. -/
abbrev W4 : Dev nD → Valuation τ sig (Elt F) := fun c => StableHlo.after hostOps2 (W3 m c)

/-- The prefetched tables' admissible contents: no pallas_call has a table. -/
abbrev adm : (p : Fin 2) → (pcfgs (F := F) p).Adm := fun p => (cfgs p).toPCfg_adm
/-- Each pipeline's proof data at its region's entry contents (a literal match on the pipeline's number). -/
def pdats : (p : Fin 2) → (c : Dev nD) → Dat τ (Elt F) Unit ℕ (UR sig nD τ) ℕ (Pipeline.pin (pcfgs (F := F)) adm p) c
  | ⟨0, _⟩ => fun c => Norm.dat (V1 m) c
  | ⟨1, _⟩ => fun c => RowLoss.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

end Cert.KernelIdeal.Whole

end
-- ==== Proof.WholeNorm.lean ====
/-
  The normalization region as an item of the program: entered from every unscoped buffer held at the contents after
  the host's stacking, left with them held at the contents that have the normalized array written. Its two arrays are
  distinct buffers, split out of the unscoped buffers on entry and put back on exit; the generator register passes
  through the region's invariant; nothing is owed; the kernel has no semaphore of its own.
-/
import proofs.«157822_j81604378624062_1_alg».proof.Proof.WholeState
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Norm.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.RowShares.lean ====
/-
  The row-loss region's arrays among the core's unscoped buffers, when two of its windows read ONE array.

  On entry the buffers behind the region's arrays — the normalized array and the array of row losses, each held whole at
  the full share — become the region's three windowed arrays: the normalized array's full share splits into two halves,
  one per reading window. On exit the two halves, both still at the entry contents (an input window's array is never
  written), join back into the full share, and the array of row losses is held at what the write-backs left.
-/
import proofs.«157822_j81604378624062_1_alg».proof.Proof.Gen.KernelIdeal.Launch
import proofs.«157822_j81604378624062_1_alg».proof.Proof.Gen.KernelIdeal.Skeleton
import proofs.«157822_j81604378624062_1_alg».proof.Proof.Gen.KernelIdeal.Points
import proofs.«157822_j81604378624062_1_alg».proof.Proof.RowData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RowLoss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the unscoped buffers at `V` are the region's arrays at their entry contents and the unscoped rest. -/
theorem arrays_in (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  unfold Pipeline.arrBufs Dat.arrays
  rw [bigSep_W1]
  rw [show Finset.univ.image (Pipeline.arrRef (cfgs 1).spec) = {main_v1, main_v2} from by decide]
  rw [bigSep_insert (by decide), bigSep_singleton]
  rw [(arr_whole1 0).set_eq_univ, (arr_whole1 2).set_eq_univ]
  have s0 : (dat V c).share 0 = fullShare.left := rfl
  have s1 : (dat V c).share 1 = fullShare.right := rfl
  have s2 : (dat V c).share 2 = fullShare := rfl
  rw [s0, s1, s2]
  show iprop((c.tc.loc main_v1 ↦{fullShare} V c main_v1) ∗ (c.tc.loc main_v2 ↦{fullShare} V c main_v2))
    ⊢ (iprop((c.tc.loc main_v1 ↦{fullShare.left} V c main_v1) ∗ (c.tc.loc main_v1 ↦{fullShare.right} V c main_v1)
        ∗ (c.tc.loc main_v2 ↦{fullShare} V c main_v2)) : sProp 𝕄)
  iintro ⟨H1, H2⟩
  ihave H := (pointsTo_share (PosShare.mem_left_op_right fullShare)).1 $$ H1
  icases H with ⟨Ha, Hb⟩
  isplitl [Ha]; · iexact Ha
  isplitl [Hb]; · iexact Hb
  iexact H2

/-- EXIT: the region's arrays at their final contents and the unscoped rest at `V` are the unscoped buffers at any `V'`
    that has the array of row losses at what the write-backs left and agrees with `V` elsewhere. -/
theorem arrays_out (c : Dev nD) (V' : (b : Ref sig .tc) → Buf (Elt F) ((c : Thread nD τ).loc b))
    (hout : V' main_v2 = (dat V c).arrAt 2 cfg1.N) (hrest : ∀ b, b ≠ main_v2 → V' b = V c b) :
    iprop((dat V c).arrays ((dat V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  refine sep_mono ?_ (Entails.of_eq ?_)
  · unfold Pipeline.arrBufs Dat.arrays
    rw [bigSep_W1]
    rw [show Finset.univ.image (Pipeline.arrRef (cfgs 1).spec) = {main_v1, main_v2} from by decide]
    rw [bigSep_insert (by decide), bigSep_singleton]
    rw [(arr_whole1 0).set_eq_univ, (arr_whole1 2).set_eq_univ]
    have s0 : (dat V c).share 0 = fullShare.left := rfl
    have s1 : (dat V c).share 1 = fullShare.right := rfl
    have s2 : (dat V c).share 2 = fullShare := rfl
    rw [s0, s1, s2]
    have a0 : (dat V c).arrAt 0 cfg1.N = V c main_v1 := ((dat V c).arrAt_in 0 rfl _).trans (dat_A V c 0)
    have a1 : (dat V c).arrAt 1 cfg1.N = V c main_v1 := ((dat V c).arrAt_in 1 rfl _).trans (dat_A V c 1)
    rw [hrest main_v1 (by decide), hout]
    show (iprop((c.tc.loc main_v1 ↦{fullShare.left} (dat V c).arrAt 0 cfg1.N) ∗ (c.tc.loc main_v1 ↦{fullShare.right} (dat V c).arrAt 1 cfg1.N)
        ∗ (c.tc.loc main_v2 ↦{fullShare} (dat V c).arrAt 2 cfg1.N)) : sProp 𝕄)
      ⊢ iprop((c.tc.loc main_v1 ↦{fullShare} V c main_v1) ∗ (c.tc.loc main_v2 ↦{fullShare} (dat V c).arrAt 2 cfg1.N))
    rw [a0, a1]
    iintro ⟨Ha, Hb, H2⟩
    isplitl [Ha Hb]
    · iapply (pointsTo_share (PosShare.mem_left_op_right fullShare)).2
      isplitl [Ha] <;> iassumption
    iexact H2
  · unfold Pipeline.unscopedRest
    exact bigSep_congr fun b hb => by
      rw [hrest b fun h => (Finset.mem_sdiff.mp hb).2 (h ▸ Finset.mem_image.mpr ⟨2, Finset.mem_univ _, rfl⟩)]

end Cert.KernelIdeal.RowLoss

end
-- ==== Proof.WholeRow.lean ====
/-
  The row-loss region as an item of the program: entered from every unscoped buffer held at the contents the
  normalization region left, left with them held at the contents that have the array of row losses written. Two of its
  windows read the normalized array: on entry that array's full share is split between them and on exit joined back
  (the entry and exit lemmas of the region's proof data); the generator register passes through the region's invariant;
  nothing is owed; the kernel has no semaphore of its own.
-/
import proofs.«157822_j81604378624062_1_alg».proof.Proof.WholeState
import proofs.«157822_j81604378624062_1_alg».proof.Proof.RowShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (RowLoss.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := RowLoss.arrays_in (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := RowLoss.arrays_out (V2 m) c (V3 m c) (W3_out m c) (fun b hb => W3_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Whole

end
-- ==== Proof.WholeRun.lean ====
/-
  The program's run: its four items as segments, and the launch. Every weakly fair execution from any memory with
  zero counters terminates, nothing faulting, and in the final memory every unscoped buffer of every core holds the
  last boundary's contents `W4` — the launch contents pushed through the host's stacking, the two regions' write-backs,
  and the host's sum and division.
-/
import proofs.«157822_j81604378624062_1_alg».proof.Proof.WholeNorm
import proofs.«157822_j81604378624062_1_alg».proof.Proof.WholeRow
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the program allocates a buffer. -/
theorem stack_fresh : (hostOps0 : List (HloOp τ sig (Elt F))).Forall fun op => op.fresh = ∅ := by
  simp only [List.Forall]; repeat' constructor
theorem tail_fresh : (hostOps2 : List (HloOp τ sig (Elt F))).Forall fun op => op.fresh = ∅ := by
  simp only [List.Forall]; repeat' constructor

/-- The program's four segments in order. -/
abbrev segs : List (Pipeline.Seg (pcfgs (F := F)) adm (pdats m) () defs₀ 𝒱₀ L lv) :=
  [ .host (hseg hostOps0 hostOps0_sub stack_fresh (W0 m)),
    .region (reg0 m),
    .region (reg1 m),
    .host (hseg hostOps2 hostOps2_sub tail_fresh (W3 m)) ]

/-- The program IS the run of the segments. -/
theorem main_run (c : Dev nD) : main (F := F) c = Pipeline.Seg.run (segs m) := (main_chain c).trans (by chain_rfl)

/-- The last thread state: every unscoped buffer at the last boundary's contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Whole

end
-- ==== Proof.WholeFrame.lean ====
/-
  The program's frame: it runs to the end without a fault and both argument arrays end as launched — no host
  operation and neither region writes an argument, so the last boundary's contents at an argument walk back through the
  four items to the launch memory.
-/
import proofs.«157822_j81604378624062_1_alg».proof.Proof.WholeRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference that neither the stacking nor the host tail writes, and that is neither region's output array, holds at
    the end what it held at launch. -/
theorem W4_untouched (c : Dev nD) (b : Ref sig .tc) (h0 : b ≠ main_v0) (h1 : b ≠ main_v1) (h2 : b ≠ main_v2)
    (h3 : b ≠ main_cst) (h4 : b ≠ main_v3) (h5 : b ≠ main_cst_0) (h6 : b ≠ main_v4) :
    W4 m c (Proc.devRef .tc b) = m ((c : Thread nD τ).loc b) :=
  calc W4 m c (Proc.devRef .tc b)
    _ = W3 m c (Proc.devRef .tc b) := StableHlo.after_of_forall_not_mem (b := Proc.devRef .tc b) _ _ (List.forall_iff_forall_mem.mp (by
          simp only [hostOps2, List.Forall, StableHlo.nullary_writes, StableHlo.unary_writes, StableHlo.binary_writes, Finset.mem_singleton]
          exact ⟨StableHlo.devRef_ne_of_ne h3, StableHlo.devRef_ne_of_ne h4, StableHlo.devRef_ne_of_ne h5, StableHlo.devRef_ne_of_ne h6⟩))
    _ = W2 m c (Proc.devRef .tc b) := W3_of_ne m c b h2
    _ = W1 m c (Proc.devRef .tc b) := W2_of_ne m c b (fun w => by fin_cases w; exact fun e => h0 e.symm; exact fun e => h1 e.symm)
    _ = W0 m c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, Finset.mem_singleton]
          exact StableHlo.devRef_ne_of_ne h0))
    _ = m ((c : Thread nD τ).loc b) := rfl

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W4_untouched m c main_arg0 (by decide) (by decide) (by decide) (by decide) (by decide) (by decide) (by decide)),
       (h c _ (mem_uc main_arg1 (by decide))).trans (W4_untouched m c main_arg1 (by decide) (by decide) (by decide) (by decide) (by decide) (by decide) (by decide))⟩)
    (run m ρ)

end Cert.KernelIdeal.Whole

end
-- ==== Proof.Spec.lean ====
/-
  The mathematics both programs compute, stated once over the extended reals and over plain index types.

  Rows: the 8192 rows of the stacked input (the first 4096 from the first argument, the last 4096 from the second),
  each a vector of 256 extended reals. Every row is scaled to unit length, its length clamped from below at the
  single-precision word nearest 1e-8. The logit of rows r and j is twice their inner product (the temperature is
  one half), except on the diagonal, where it is the finite mask value -1e9. Row r's loss is the log of the sum of
  the exponentials of its logits minus the logit against its partner row r ± 4096; the result is the mean of the
  8192 row losses.

  The two programs spell this differently, and both spellings are recorded here:
  * the kernel subtracts the row maximum before exponentiating, adds it back after the logarithm, picks the
    partner's logit by a masked sum over the row, and multiplies by 2;
  * the reference divides by one half, takes (logit - max) - log(sum) at every column, reads the partner's column,
    and negates the sum of the 8192 entries.
  `lossK` and `lossR` agree whenever every input entry is a real number (proved in a later module): then every
  intermediate value is a real number, so negation and regrouping are the laws of the real field.
-/
import Idealize.ShloMosaic.PureOps.Ideal
import Idealize.ShloMosaic.PureOps.Ideal.Laws

noncomputable section

namespace Cert.Spec

open Idealize.ShloMosaic

/-- The lower clamp of a row's length: the single-precision word nearest 1e-8. -/
def floorLen : EReal := Ideal.ofBits .f32 0x322BCC77#32
/-- The diagonal's mask value, -1e9 (a finite number). -/
def maskVal : EReal := Ideal.ofBits .f32 0xCE6E6B28#32
/-- 2, the reciprocal of the temperature. -/
def two : EReal := Ideal.ofBits .f32 0x40000000#32
/-- 1/2, the temperature. -/
def half : EReal := Ideal.ofBits .f32 0x3F000000#32
/-- 8192, the number of rows. -/
def count : EReal := Ideal.ofBits .f32 0x46000000#32
/-- The bottom element: the value a running maximum starts from. -/
def negInf : EReal := Ideal.ofBits .f32 0xFF800000#32

/-- The stacked rows. -/
abbrev Rows : Type := Fin 8192 → Fin 256 → EReal

/-- A row's squared length. -/
def sumsq (x : Fin 256 → EReal) : EReal := ∑ k, x k * x k

/-- The inner product of two rows. -/
def dot (a b : Fin 256 → EReal) : EReal := ∑ k, a k * b k

/-- Row `x` scaled to unit length, the length clamped from below (the kernel's lane sum has no initial value). -/
def unitRow (x : Fin 256 → EReal) (k : Fin 256) : EReal :=
  Ideal.div (x k) (max (Ideal.sqrt (sumsq x)) floorLen)

/-- The same with the host's sum, which starts from an explicit zero. -/
def unitRowH (x : Fin 256 → EReal) (k : Fin 256) : EReal :=
  Ideal.div (x k) (max (Ideal.sqrt (0 + sumsq x)) floorLen)

/-- Row `r`'s partner: `r + 4096` in the first half, `r - 4096` in the second. -/
def partner (r : Fin 8192) : Fin 8192 :=
  if h : r.val < 4096 then ⟨r.val + 4096, by omega⟩ else ⟨r.val - 4096, by omega⟩

/-- The kernel's logits of row `r`: twice the inner product, the diagonal masked. -/
def logitK (u : Rows) (r j : Fin 8192) : EReal := if r = j then maskVal else dot (u r) (u j) * two

/-- The kernel's loss of one row with logits `s` and partner column `l`. -/
def rowK (s : Fin 8192 → EReal) (l : Fin 8192) : EReal :=
  (Finset.univ.fold max negInf s + Ideal.log (∑ j, Ideal.exp (s j - Finset.univ.fold max negInf s)))
    - ∑ j, (if j = l then s j else 0)

/-- The kernel's result: the mean of the row losses (the host's sum starts from zero). -/
def lossK (z : Rows) : EReal :=
  Ideal.div (0 + ∑ r, rowK (logitK (fun r => unitRow (z r)) r) (partner r)) count

/-- The reference's logits of row `r`: the inner product divided by one half, the diagonal masked. -/
def logitR (u : Rows) (r j : Fin 8192) : EReal := if r = j then maskVal else Ideal.div (dot (u r) (u j)) half

/-- The reference's log-probability of row logits `s` at column `l`. -/
def rowR (s : Fin 8192 → EReal) (l : Fin 8192) : EReal :=
  (s l - max negInf (Finset.univ.fold max negInf s))
    - Ideal.log (0 + ∑ j, Ideal.exp (s j - max negInf (Finset.univ.fold max negInf s)))

/-- The reference's result: minus the sum of the partner log-probabilities, over the number of rows. -/
def lossR (z : Rows) : EReal :=
  Ideal.div (-(0 + ∑ r, rowR (logitR (fun r => unitRowH (z r)) r) (partner r))) count

end Cert.Spec

end
-- ==== Proof.PayLayout.lean ====
/-
  Layout and reduction steps of the two kernel bodies read at an index given by coordinates.

  Both bodies reduce a matrix along its lanes (axis 1), view the resulting vector `[a]` as a column `[a, 1]`, and lay
  that column along every lane again (`[a, 1]` to `[a, b]`). Read at coordinates:
  * the column view at `(i, u)` is the vector at `i` (the two positions have the same row-major rank `i`);
  * the column laid along the lanes at `(p, c)` is the column's entry of row `p`;
  * a lane sum at row `r` is the sum over `k` of the entries `(r, k)`;
  * a lane maximum at row `r` is the fold of `max`, from the accumulator's value, over the entries `(r, k)`.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx

variable {α : Type}

/-- A vector `[a]` cast to the column `[a, 1]` reads, at `(i, u)`, the operand at `i`: both positions have row-major
    rank `i`, since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row axis is kept
    (when `a = 1` the only row is row `0`), the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum along the lanes of an `[a, b]` array reads, at row `r`, the sum of that row's `b` entries: the index inserted
    over `r` with lane coordinate `k` is `(r, k)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- A maximum along the lanes of an `[a, b]` array, from the accumulator word for minus infinity, reads, at row `r`, the
    fold of `max` from that word's value over the row's `b` entries. -/
theorem laneMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  have e : (src ∘ h.lift (ix1 r)) = fun k : Fin b => src (ix2 r k) :=
    funext fun k => congrArg src (funext fun c => Fin.ext (by
      match c with
      | ⟨0, _⟩ => rfl
      | ⟨1, _⟩ => rfl))
  rw [e]
  rfl

end Cert.KernelIdeal.PayValue

end
-- ==== Proof.PayNorm.lean ====
/-
  The row-normalizing body's stored value, read at an index.

  The body squares its 1024 × 256 block entrywise, sums each row's 256 squares, takes the square root, clamps it from
  below at the word nearest 1e-8, lays the clamped length along the row's lanes and divides the block by it; the final
  narrowing of the format is the identity on extended reals. At `(p, q)` this is the block's row `p`, scaled to
  unit length, at lane `q`.
-/
import proofs.«157822_j81604378624062_1_alg».proof.Proof.Gen.KernelIdeal.Skeleton
import proofs.«157822_j81604378624062_1_alg».proof.Proof.Spec
import proofs.«157822_j81604378624062_1_alg».proof.Proof.PayLayout

noncomputable section

namespace Cert.KernelIdeal.PayValue

open Idealize.ShloMosaic Idealize.ShloMosaic.ValueIdx Cert.KernelIdeal

/-- The normalizing body's stored value at `(p, q)`: entry `q` of row `p` divided by the row's clamped length. The
    same-shape cast is the identity; the division, the lane broadcast of the column, the maximum and the square root
    read through the index; the column view of the row sums reads the sum of row `p`; that sum is the sum of the
    squares of the row's entries. -/
theorem k0_pay1_apply (v0 : Vec Ideal S1024x256 .f32) (p : Fin 1024) (q : Fin 256) :
    Gen.k0_pay1 (F := Ideal) v0 (ix2 p q) = Cert.Spec.unitRow (fun k => v0 (ix2 p k)) q := by
  unfold Gen.k0_pay1
  dsimp only
  rw [shapeCast_self, truncf_apply, divf_apply, broadcastTo_a1_ab_apply, maximumf_apply, broadcast_apply]
  show Ideal.div (v0 (ix2 p q))
      (max (Ideal.sqrt (shapeCast S1024x1 _ Gen.shapeCasts_S1024_S1024x1 (ix2 p (0 : Fin 1)))) (Ideal.ofBits .f32 0x322BCC77#32)) = _
  rw [shapeCast_a_a1_apply]
  have hs := laneSum_apply (mulf v0 v0) Gen.reduces_S1024x256_S1024 (.inl rfl) rfl p
  rw [hs]
  rfl

end Cert.KernelIdeal.PayValue

end
-- ==== Proof.NormFinal.lean ====
/-
  The normalized array after the first region, at the ideal instance, as ONE function of the stacked array the region
  is entered from: row r of the result is row r of the input divided by its clamped length.

  Point t of the grid writes back rows 1024 t .. 1024 t + 1023, computed from the same rows of the input; the eight
  blocks tile the 8192 rows, so the array ends holding the function everywhere.
-/
import proofs.«157822_j81604378624062_1_alg».proof.Proof.NormData
import proofs.«157822_j81604378624062_1_alg».proof.Proof.PayNorm
import proofs.«157822_j81604378624062_1_alg».proof.Proof.Spec
import Idealize.ShloMosaic.Lib.Pipeline.Value
import Idealize.ShloMosaic.Lib.ValueIdx

set_option maxRecDepth 16384

noncomputable section

namespace Cert.KernelIdeal.Norm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Every row of `z` scaled to unit length (the length clamped from below). -/
def normalized (z : S8192x256.Idx → EReal) : S8192x256.Idx → EReal :=
  fun i => Cert.Spec.unitRow (fun k => z (ix2 (n0 := 8192) (n1 := 256) (i 0) k)) (i 1)

theorem zero_start : (![0, 0] : Fin 2 → Nat) = fun _ => 0 := funext fun a => by fin_cases a <;> rfl

/-- The body's stored value at an index of its block is the normalized array at the index `b` blocks of 1024 rows
    further down, when the loaded block `x` is rows 1024 b .. 1024 b + 1023 of `z`. -/
theorem stored_at (x : Vec Ideal S1024x256 .f32) (z : S8192x256.Idx → EReal) (b : Nat)
    (hx : ∀ (p : Fin 1024) (k : Fin 256) (i : S8192x256.Idx), (i 0).val = b * 1024 + p.val → (i 1).val = k.val → x (ix2 p k) = z i)
    (j : S1024x256.Idx) (i : S8192x256.Idx) (h0 : (i 0).val = b * 1024 + (j 0).val) (h1 : (i 1).val = (j 1).val) :
    k0_pay1 (F := Ideal) x j = normalized z i := by
  obtain ⟨p, q, rfl⟩ : ∃ (p : Fin 1024) (q : Fin 256), j = ix2 p q := ⟨j 0, j 1, eq_ix2 j⟩
  rw [Cert.KernelIdeal.PayValue.k0_pay1_apply]
  unfold normalized
  have hq : (i 1 : Fin 256) = q := Fin.ext h1
  rw [hq]
  congr 1
  funext k
  exact hx p k _ h0 rfl

variable (V : (c : Dev nD) → (b : Ref sig .tc) → Buf (Elt Ideal) ((c : Thread nD τ).loc b))

/-- The printed index maps over the grid: both windows' block index is (t, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the normalized array. -/
theorem flushed_eq (c : Dev nD) (t : Fin cfg0.N) :
    (dat V c).flushed 1 t = ((cfg0.win 1).blk t).view.read (Elt Ideal) (normalized (V c main_v0)) := by
  show (cfg0.win 1).cut (grid0.coords t) ((dat V c).after 1 t) = _
  rw [dat_after_out]
  unfold stored
  rw [View.canon_unit_zero zero_start]
  simp only [View.ld_unit_zero (S := S1024x256) zero_start]
  obtain ⟨e0, e1, e2, e3⟩ := index_facts t
  funext j
  refine stored_at _ (V c main_v0) t.val (fun p k i hi0 hi1 => ?_) j _ ?_ ?_
  · show V c main_v0 (((cfg0.win 0).blk t).view.emb (ix2 p k)) = V c main_v0 i
    congr 1
    funext a; apply Fin.ext
    match a with
    | ⟨0, _⟩ => show win0_0.index t (0 : Fin 2) * 1024 + 1 * p.val = (i 0).val; omega
    | ⟨1, _⟩ => show win0_0.index t (1 : Fin 2) * 256 + 1 * k.val = (i 1).val; omega
  · show win0_1.index t (0 : Fin 2) * 1024 + 1 * (j 0).val = t.val * 1024 + (j 0).val; omega
  · show win0_1.index t (1 : Fin 2) * 256 + 1 * (j 1).val = (j 1).val; omega

/-- An index of the array is in point `t`'s block iff each coordinate is in the block's range on its axis. -/
theorem mem_block (t : Fin cfg0.N) (i : S8192x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v1).slice (win0_1.rect t)).set ↔ _
  rw [View.set_slice_whole, Rect.mem_set_unit]
  exact Iff.rfl

/-- Every index is in the block of the point that owns its row. -/
theorem covered (i : S8192x256.Idx) : ∃ t : Fin cfg0.N, (cfg0.win 1).flush t = true ∧ i ∈ ((cfg0.win 1).blk t).view.set := by
  have hi0 : (i 0).val < 8192 := (i 0).isLt
  have hi1 : (i 1).val < 256 := (i 1).isLt
  have hN : cfg0.N = 8 := N_0
  refine ⟨⟨(i 0).val / 1024, by rw [hN]; omega⟩, flush0_1 _, ?_⟩
  rw [mem_block]
  obtain ⟨e0, e1, e2, e3⟩ := index_facts ⟨(i 0).val / 1024, by rw [hN]; omega⟩
  intro a
  match a with
  | ⟨0, _⟩ => show win0_1.index _ (0 : Fin 2) * 1024 ≤ (i 0).val ∧ (i 0).val < win0_1.index _ (0 : Fin 2) * 1024 + 1024; rw [e2]; show (i 0).val / 1024 * 1024 ≤ (i 0).val ∧ (i 0).val < (i 0).val / 1024 * 1024 + 1024; omega
  | ⟨1, _⟩ => show win0_1.index _ (1 : Fin 2) * 256 ≤ (i 1).val ∧ (i 1).val < win0_1.index _ (1 : Fin 2) * 256 + 256; rw [e3]; omega

/-- The normalized array after the region. -/
theorem final (c : Dev nD) : (dat V c).arrAt 1 cfg0.N = normalized (V c main_v0) :=
  (dat V c).arrAt_eq_of_cover 1 (normalized (V c main_v0)) (fun t _ => flushed_eq V c t) covered

end Cert.KernelIdeal.Norm

end
-- ==== Proof.PayIndex.lean ====
/-
  The integer part of the row-loss body: its row numbers and its two tests.

  The body numbers its 128 rows as block number times 128 plus the row inside the block, numbers the 8192 columns by
  their lane coordinate, and compares 32-bit words: the diagonal test is "row number = column number", the label test is
  "column number = partner of the row number", the partner being the row number plus 4096 when the row number is below
  4096 (a signed comparison) and minus 4096 otherwise. Every number involved is below 8192 + 4096, far below 2^31, so the
  words behave as the natural numbers they encode: the two tests hold exactly when `r = j` and when `j = partner r`.
-/
import proofs.«157822_j81604378624062_1_alg».proof.Proof.Spec

namespace Cert.KernelIdeal.PayValue

open Idealize.ShloMosaic

/-- The row number the body computes, block number times 128 plus the row inside the block, is the word of that
    natural number (multiplication and addition of words commute with encoding, at any size). -/
theorem rowWord_eq (g p : ℕ) :
    IntOp.addi (Scalar.muli (BitVec.ofNat 32 g) 128#32) (BitVec.ofNat 32 p) = BitVec.ofNat 32 (g * 128 + p) := by
  show BitVec.ofNat 32 g * BitVec.ofNat 32 128 + BitVec.ofNat 32 p = _
  rw [BitVec.ofNat_mul_ofNat, BitVec.ofNat_add_ofNat]

/-- Two numbers below 8192 have equal 32-bit words exactly when they are equal. -/
theorem ofNat_eq_iff (r j : ℕ) (hr : r < 8192) (hj : j < 8192) : BitVec.ofNat 32 r = BitVec.ofNat 32 j ↔ r = j := by
  constructor
  · intro h
    have := congrArg BitVec.toNat h
    rw [BitVec.toNat_ofNat, BitVec.toNat_ofNat] at this
    omega
  · rintro rfl; rfl

/-- A select on the equality test of the words of two numbers below 8192 is the `if` on their equality. -/
theorem select_eq_word {α : Type} (r j : ℕ) (hr : r < 8192) (hj : j < 8192) (A B : α) :
    Scalar.select (IntOp.cmpi .eq (BitVec.ofNat 32 r) (BitVec.ofNat 32 j)) A B = if r = j then A else B := by
  show (if BitVec.ofBool (BitVec.ofNat 32 r == BitVec.ofNat 32 j) = 1#1 then A else B) = _
  by_cases h : r = j
  · subst h
    rw [beq_self_eq_true, BitVec.ofBool_true]
    exact (if_pos rfl).trans (if_pos rfl).symm
  · have hne : BitVec.ofNat 32 r ≠ BitVec.ofNat 32 j := fun e => h ((ofNat_eq_iff r j hr hj).mp e)
    rw [beq_eq_false_iff_ne.mpr hne, BitVec.ofBool_false, if_neg (by decide), if_neg h]

/-- The partner's number as the body computes it from the word of a row number `r` below 8192: the signed test
    `r < 4096` is the test on the natural number (the word's sign bit is clear), adding 4096 is adding it, and
    subtracting 4096 from a number that is at least 4096 is subtracting it. -/
theorem partnerWord_eq (r : Fin 8192) :
    Scalar.select (IntOp.cmpi .slt (BitVec.ofNat 32 r.val) 4096#32) (IntOp.addi (BitVec.ofNat 32 r.val) 4096#32)
        (IntOp.subi (BitVec.ofNat 32 r.val) 4096#32)
      = BitVec.ofNat 32 (Spec.partner r).val := by
  have hr := r.isLt
  have hslt : (BitVec.ofNat 32 r.val).slt 4096#32 = decide (r.val < 4096) := by
    rw [BitVec.slt_eq_decide]
    have h1 : (BitVec.ofNat 32 r.val).toInt = (r.val : Int) := by
      rw [BitVec.toInt_eq_toNat_of_lt (by rw [BitVec.toNat_ofNat]; omega), BitVec.toNat_ofNat]
      omega
    have h2 : (4096#32 : BitVec 32).toInt = 4096 := by decide
    rw [h1, h2]
    simp
  unfold Scalar.select IntOp.cmpi Spec.partner
  simp only [hslt]
  by_cases h : r.val < 4096
  · simp only [h, decide_true, BitVec.ofBool_true, dite_true, if_true]
    show BitVec.ofNat 32 r.val + BitVec.ofNat 32 4096 = _
    rw [BitVec.ofNat_add_ofNat]
  · have h01 : ¬ ((0 : BitVec 1) = 1) := by decide
    simp only [h, decide_false, BitVec.ofBool_false, dite_false]
    rw [if_neg h01]
    show BitVec.ofNat 32 r.val - BitVec.ofNat 32 4096 = _
    rw [BitVec.ofNat_sub_ofNat_of_le _ _ (by decide) (by omega)]

/-- THE DIAGONAL TEST: at block `g`, row `p` inside the block and column `j`, with `r = g · 128 + p` the row's number, the
    select on "row number = column number" is the `if` on `r = j`. -/
theorem diag_select {α : Type} (g p : ℕ) (r j : Fin 8192) (hr : r.val = g * 128 + p) (A B : α) :
    Scalar.select (IntOp.cmpi .eq (IntOp.addi (Scalar.muli (BitVec.ofNat 32 g) 128#32) (BitVec.ofNat 32 p))
        (BitVec.ofNat 32 j.val)) A B
      = if r = j then A else B := by
  rw [rowWord_eq, ← hr, select_eq_word r.val j.val r.isLt j.isLt]
  by_cases h : r = j
  · subst h; exact (if_pos rfl).trans (if_pos rfl).symm
  · rw [if_neg h, if_neg (fun e => h (Fin.ext e))]

/-- THE LABEL TEST: the select on "column number = partner of the row number" is the `if` on `j = partner r`. -/
theorem label_select {α : Type} (g p : ℕ) (r j : Fin 8192) (hr : r.val = g * 128 + p) (A B : α) :
    Scalar.select (IntOp.cmpi .eq (BitVec.ofNat 32 j.val)
        (Scalar.select
          (IntOp.cmpi .slt (IntOp.addi (Scalar.muli (BitVec.ofNat 32 g) 128#32) (BitVec.ofNat 32 p)) 4096#32)
          (IntOp.addi (IntOp.addi (Scalar.muli (BitVec.ofNat 32 g) 128#32) (BitVec.ofNat 32 p)) 4096#32)
          (IntOp.subi (IntOp.addi (Scalar.muli (BitVec.ofNat 32 g) 128#32) (BitVec.ofNat 32 p)) 4096#32))) A B
      = if j = Spec.partner r then A else B := by
  rw [rowWord_eq, ← hr, partnerWord_eq, select_eq_word j.val (Spec.partner r).val j.isLt (Spec.partner r).isLt]
  by_cases h : j = Spec.partner r
  · rw [if_pos h, if_pos (congrArg Fin.val h)]
  · rw [if_neg h, if_neg (fun e => h (Fin.ext e))]

end Cert.KernelIdeal.PayValue
-- ==== Proof.PayRowLoss.lean ====
/-
  The row-loss body's arithmetic over an arbitrary matrix of logits, read at a row.

  Given a 128 × 8192 matrix `M` of logits and a 128 × 8192 matrix `L` of one-bit labels, the body takes each row's maximum,
  subtracts it from the row, exponentiates, sums the row, takes the logarithm and adds the maximum back; from that it
  subtracts the row's sum of the logits the label keeps (zero elsewhere). If row `p` of `M` is the function `s` and
  row `p` of `L` marks exactly column `l`, the value stored for row `p` is the specification's row loss of `s` at `l`.
-/
import proofs.«157822_j81604378624062_1_alg».proof.Proof.Gen.KernelIdeal
import proofs.«157822_j81604378624062_1_alg».proof.Proof.Spec
import proofs.«157822_j81604378624062_1_alg».proof.Proof.PayLayout

noncomputable section

namespace Cert.KernelIdeal.PayValue

open Idealize.ShloMosaic Idealize.ShloMosaic.ValueIdx Cert.KernelIdeal

/-- The exponential of a vector read at an index is the exponential of the entry. -/
theorem exp_apply {s : Shape} {φ : FTy} (x : FVec Ideal s φ) (i : s.Idx) : Idealize.ShloMosaic.exp x i = Ideal.exp (x i) := rfl
/-- The logarithm of a vector read at an index is the logarithm of the entry. -/
theorem log_apply {s : Shape} {φ : FTy} (x : FVec Ideal s φ) (i : s.Idx) : Idealize.ShloMosaic.log x i = Ideal.log (x i) := rfl

/-- THE ROW LOSS: with row `p` of the logits `M` equal to `s` (`hM`) and row `p` of the labels `L` selecting exactly column
    `l` (`hL`), the stored column at `(p, 0)` is `(max s + log (∑ exp (s - max s))) - ∑ (s at l, zero elsewhere)`.
    The row maximum's column reads the fold of `max` over `s`; laid along the lanes it reads the same at every column;
    the two lane sums read their summands at `(p, j)`; the zero the label rejects to is the real number zero. -/
theorem rowLoss_apply (M : FVec Ideal S128x8192 .f32) (L : IVec S128x8192 1) (s : Fin 8192 → EReal) (l : Fin 8192) (p : Fin 128)
    (hM : ∀ j : Fin 8192, M (ix2 p j) = s j)
    (hL : ∀ (j : Fin 8192) (A B : EReal), Scalar.select (L (ix2 p j)) A B = if j = l then A else B) :
    subf (addf (shapeCast S128x1 (multiReduction (F := Ideal) .maximumf [1] S128 M 0xFF800000#32 Gen.reduces_S128x8192_S128 (.inl rfl) rfl) Gen.shapeCasts_S128_S128x1) (log (shapeCast S128x1 (multiReduction (F := Ideal) .add [1] S128 (exp (subf M (broadcastTo S128x8192 (shapeCast S128x1 (multiReduction (F := Ideal) .maximumf [1] S128 M 0xFF800000#32 Gen.reduces_S128x8192_S128 (.inl rfl) rfl) Gen.shapeCasts_S128_S128x1) Gen.broadcasts_S128x1_S128x8192))) 0x00000000#32 Gen.reduces_S128x8192_S128 (.inl rfl) rfl) Gen.shapeCasts_S128_S128x1)))
        (shapeCast S128x1 (multiReduction (F := Ideal) .add [1] S128 (select L M (broadcast S128x8192 (FloatOps.ofBits (F := Ideal) .f32 0x00000000#32))) 0x00000000#32 Gen.reduces_S128x8192_S128 (.inl rfl) rfl) Gen.shapeCasts_S128_S128x1) (ix2 p (0 : Fin 1))
      = Cert.Spec.rowK s l := by
  have hmx : (shapeCast S128x1 (multiReduction (F := Ideal) .maximumf [1] S128 M 0xFF800000#32 Gen.reduces_S128x8192_S128 (.inl rfl) rfl) Gen.shapeCasts_S128_S128x1) (ix2 p (0 : Fin 1)) = Finset.univ.fold max Cert.Spec.negInf s := by
    rw [shapeCast_a_a1_apply]
    refine (laneMax_apply M Gen.reduces_S128x8192_S128 (.inl rfl) rfl p).trans ?_
    rw [show (fun k : Fin 8192 => M (ix2 p k)) = s from funext hM]
    rfl
  have hsum : (multiReduction (F := Ideal) .add [1] S128 (exp (subf M (broadcastTo S128x8192 (shapeCast S128x1 (multiReduction (F := Ideal) .maximumf [1] S128 M 0xFF800000#32 Gen.reduces_S128x8192_S128 (.inl rfl) rfl) Gen.shapeCasts_S128_S128x1) Gen.broadcasts_S128x1_S128x8192))) 0x00000000#32 Gen.reduces_S128x8192_S128 (.inl rfl) rfl) (ix1 p) = ∑ j : Fin 8192, Ideal.exp (s j - Finset.univ.fold max Cert.Spec.negInf s) := by
    refine (laneSum_apply _ Gen.reduces_S128x8192_S128 (.inl rfl) rfl p).trans ?_
    refine Finset.sum_congr rfl fun j _ => ?_
    rw [exp_apply, subf_apply, broadcastTo_a1_ab_apply, hM, hmx]
  have hlab : (multiReduction (F := Ideal) .add [1] S128 (select L M (broadcast S128x8192 (FloatOps.ofBits (F := Ideal) .f32 0x00000000#32))) 0x00000000#32 Gen.reduces_S128x8192_S128 (.inl rfl) rfl) (ix1 p) = ∑ j : Fin 8192, (if j = l then s j else 0) := by
    refine (laneSum_apply _ Gen.reduces_S128x8192_S128 (.inl rfl) rfl p).trans ?_
    refine Finset.sum_congr rfl fun j _ => ?_
    rw [select_apply, hL, hM, broadcast_apply]
    show (if j = l then s j else Ideal.ofBits .f32 0x00000000#32) = _
    rw [Ideal.ofBits_zero_f32]
  rw [subf_apply, addf_apply, log_apply, hmx, shapeCast_a_a1_apply, shapeCast_a_a1_apply, hsum, hlab]
  rfl

end Cert.KernelIdeal.PayValue

end
-- ==== Proof.PayRow.lean ====
/-
  The row-loss body's stored value, read at an index.

  For block `i` of 128 rows the body multiplies the block (128 × 256) with the whole array (8192 × 256), both contracted
  along their lanes, doubles the products, overwrites the diagonal (row number = column number, the row number being
  `i · 128 + p`) with the mask value, and takes, per row, the log-sum-exp of the row minus the logit in the partner's
  column. Read at `(p, 0)` this is the specification's row loss of row `r = i · 128 + p`:
  * the matrix product at `(p, j)` is the inner product of row `p` of the block and row `j` of the array: the sum over the
    contraction index is re-indexed through that index's one coordinate, and the two operand indices are `(p, k)` and
    `(j, k)`;
  * the diagonal and label tests are the integer facts of the module on the row numbers;
  * the arithmetic on the two matrices is the module on the row loss.
-/
import proofs.«157822_j81604378624062_1_alg».proof.Proof.Gen.KernelIdeal.Skeleton
import proofs.«157822_j81604378624062_1_alg».proof.Proof.Spec
import proofs.«157822_j81604378624062_1_alg».proof.Proof.PayLayout
import proofs.«157822_j81604378624062_1_alg».proof.Proof.PayIndex
import proofs.«157822_j81604378624062_1_alg».proof.Proof.PayRowLoss

noncomputable section

namespace Cert.KernelIdeal.PayValue

open Idealize.ShloMosaic Idealize.ShloMosaic.ValueIdx Cert.KernelIdeal

/-- The left operand's index of the product at output `i` keeps the output's row on axis 0 … -/
theorem dotLhs_0 (i : S128x8192.Idx) (q : dot_S128x256_S8192x256_S128x8192_1_1_0_0_n_n.contr.Idx) :
    (dot_S128x256_S8192x256_S128x8192_1_1_0_0_n_n.lhsIdx i q 0).val = (i 0).val := by
  unfold DotDims.lhsIdx
  rw [dif_neg (show ¬(0 : Fin S128x256.rank) ∈ dot_S128x256_S8192x256_S128x8192_1_1_0_0_n_n.lhsBatch by decide), dif_pos (show (0 : Fin S128x256.rank) ∈ dot_S128x256_S8192x256_S128x8192_1_1_0_0_n_n.lhsNonContracting by decide)]
  rfl
/-- … and carries the contraction coordinate on axis 1. -/
theorem dotLhs_1 (i : S128x8192.Idx) (q : dot_S128x256_S8192x256_S128x8192_1_1_0_0_n_n.contr.Idx) :
    (dot_S128x256_S8192x256_S128x8192_1_1_0_0_n_n.lhsIdx i q 1).val = (q ⟨0, by decide⟩).val :=
  dot_S128x256_S8192x256_S128x8192_1_1_0_0_n_n.lhsIdx_val_of_single rfl i q
/-- The right operand's index keeps the output's column on axis 0 … -/
theorem dotRhs_0 (i : S128x8192.Idx) (q : dot_S128x256_S8192x256_S128x8192_1_1_0_0_n_n.contr.Idx) :
    (dot_S128x256_S8192x256_S128x8192_1_1_0_0_n_n.rhsIdx i q 0).val = (i 1).val := by
  unfold DotDims.rhsIdx
  rw [dif_neg (show ¬(0 : Fin S8192x256.rank) ∈ dot_S128x256_S8192x256_S128x8192_1_1_0_0_n_n.rhsBatch by decide), dif_pos (show (0 : Fin S8192x256.rank) ∈ dot_S128x256_S8192x256_S128x8192_1_1_0_0_n_n.rhsNonContracting by decide)]
  rfl
/-- … and carries the contraction coordinate on axis 1. -/
theorem dotRhs_1 (i : S128x8192.Idx) (q : dot_S128x256_S8192x256_S128x8192_1_1_0_0_n_n.contr.Idx) :
    (dot_S128x256_S8192x256_S128x8192_1_1_0_0_n_n.rhsIdx i q 1).val = (q ⟨0, by decide⟩).val :=
  dot_S128x256_S8192x256_S128x8192_1_1_0_0_n_n.rhsIdx_val_of_single rfl i q

/-- The body's matrix product, accumulated into the zero splat, read at `(p, j)`: the inner product of row `p` of the
    block with row `j` of the whole array (both operands are contracted along their lanes). -/
theorem logits_apply (x : FVec Ideal S128x256 .bf16) (y : FVec Ideal S8192x256 .bf16) (p : Fin 128) (j : Fin 8192) :
    matmul dot_S128x256_S8192x256_S128x8192_1_1_0_0_n_n none x y (constant (F := Ideal) S128x8192 .f32 0x00000000#32) (ix2 p j)
      = ∑ k : Fin 256, x (ix2 p k) * y (ix2 j k) := by
  show FloatOps.matmul dot_S128x256_S8192x256_S128x8192_1_1_0_0_n_n none x y (constant (F := Ideal) S128x8192 .f32 0x00000000#32) (ix2 p j) = _
  rw [Ideal.matmul_constant_zero_apply, ← Equiv.sum_comp (ValueIdx.contrEquiv1 dot_S128x256_S8192x256_S128x8192_1_1_0_0_n_n 256 rfl rfl).symm]
  refine Finset.sum_congr rfl fun k _ => ?_
  have hk := ValueIdx.contrEquiv1_symm_val dot_S128x256_S8192x256_S128x8192_1_1_0_0_n_n 256 rfl rfl k
  have el : dot_S128x256_S8192x256_S128x8192_1_1_0_0_n_n.lhsIdx (ix2 p j) ((ValueIdx.contrEquiv1 dot_S128x256_S8192x256_S128x8192_1_1_0_0_n_n 256 rfl rfl).symm k) = ix2 p k := funext fun a => Fin.ext (by
    match a with
    | ⟨0, _⟩ => exact dotLhs_0 _ _
    | ⟨1, _⟩ => exact (dotLhs_1 _ _).trans hk)
  have er : dot_S128x256_S8192x256_S128x8192_1_1_0_0_n_n.rhsIdx (ix2 p j) ((ValueIdx.contrEquiv1 dot_S128x256_S8192x256_S128x8192_1_1_0_0_n_n 256 rfl rfl).symm k) = ix2 j k := funext fun a => Fin.ext (by
    match a with
    | ⟨0, _⟩ => exact dotRhs_0 _ _
    | ⟨1, _⟩ => exact (dotRhs_1 _ _).trans hk)
  rw [el, er]

/-- THE ROW-LOSS BODY'S STORED VALUE at row `p` of block `i`, with `r = i · 128 + p` the row's number among the 8192: the
    specification's row loss of the masked logits of row `r` at its partner's column. The same-shape casts are the
    identity; the logits at `(p, j)` are the select on the diagonal test between the mask value and twice the inner
    product of the block's row `p` with the array's row `j`; the labels at `(p, j)` are the test "column = partner of
    the row number"; the rest is the row-loss arithmetic over those two matrices. -/
theorem k1_pay1_apply (i : grid1.Coords) (v1 : Vec Ideal S128x256 .bf16) (v3 : Vec Ideal S8192x256 .bf16) (p : Fin 128)
    (r : Fin 8192) (hr : r.val = (i 0).val * 128 + p.val) :
    Gen.k1_pay1 (F := Ideal) i v1 v3 (ix2 p 0)
      = Cert.Spec.rowK (fun j => if r = j then Cert.Spec.maskVal
          else Cert.Spec.dot (fun k => v1 (ix2 p k)) (fun k => v3 (ix2 j k)) * Cert.Spec.two) (Cert.Spec.partner r) := by
  unfold Gen.k1_pay1
  dsimp only
  rw [shapeCast_self, shapeCast_self]
  refine rowLoss_apply _ _ _ _ p (fun j => ?_) (fun j A B => ?_)
  · rw [select_apply, broadcast_apply, mulf_apply, broadcast_apply, logits_apply]
    show Scalar.select (IntOp.cmpi .eq (IntOp.addi (Scalar.muli (BitVec.ofNat 32 (i 0).val) 128#32) (iota .tc S128x8192 32 [0] Gen.iota_S128x8192_d0_w32 (ix2 p j))) (iota .tc S128x8192 32 [1] Gen.iota_S128x8192_d1_w32 (ix2 p j))) _ _ = _
    rw [iota_single_apply, iota_single_apply]
    exact diag_select (i 0).val p.val r j hr _ _
  · show Scalar.select (IntOp.cmpi .eq (iota .tc S128x8192 32 [1] Gen.iota_S128x8192_d1_w32 (ix2 p j))
        (Scalar.select (IntOp.cmpi .slt (IntOp.addi (Scalar.muli (BitVec.ofNat 32 (i 0).val) 128#32) (iota .tc S128x8192 32 [0] Gen.iota_S128x8192_d0_w32 (ix2 p j))) 4096#32) (IntOp.addi (IntOp.addi (Scalar.muli (BitVec.ofNat 32 (i 0).val) 128#32) (iota .tc S128x8192 32 [0] Gen.iota_S128x8192_d0_w32 (ix2 p j))) 4096#32) (IntOp.subi (IntOp.addi (Scalar.muli (BitVec.ofNat 32 (i 0).val) 128#32) (iota .tc S128x8192 32 [0] Gen.iota_S128x8192_d0_w32 (ix2 p j))) 4096#32))) A B = _
    rw [iota_single_apply, iota_single_apply]
    exact label_select (i 0).val p.val r j hr A B

end Cert.KernelIdeal.PayValue

end
-- ==== Proof.RowFinal.lean ====
/-
  The array of row losses after the second region, at the ideal instance, as ONE function of the normalized array the
  region is entered from: entry r is the specification's row loss of the masked logits of row r at its partner's column.

  Point t of the grid writes back entries 128 t .. 128 t + 127, computed from rows 128 t .. 128 t + 127 of the array
  (the first input's block) and from the whole array (the second input's block); the 64 blocks tile the 8192 entries, so
  the output ends holding the function everywhere.
-/
import proofs.«157822_j81604378624062_1_alg».proof.Proof.RowData
import proofs.«157822_j81604378624062_1_alg».proof.Proof.PayRow
import proofs.«157822_j81604378624062_1_alg».proof.Proof.Spec
import Idealize.ShloMosaic.Lib.Pipeline.Value
import Idealize.ShloMosaic.Lib.ValueIdx

set_option maxRecDepth 16384

noncomputable section

namespace Cert.KernelIdeal.RowLoss

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Every row's loss: the row loss of row `r`'s masked logits against all rows of `u`, at the partner's column. -/
def rowLosses (u : S8192x256.Idx → EReal) : S8192x1.Idx → EReal :=
  fun i => Cert.Spec.rowK (Cert.Spec.logitK (fun r k => u (ix2 (n0 := 8192) (n1 := 256) r k)) (i 0)) (Cert.Spec.partner (i 0))

theorem zero_start : (![0, 0] : Fin 2 → Nat) = fun _ => 0 := funext fun a => by fin_cases a <;> rfl

/-- The body's stored value at an index of its block is the row loss at the index `b` blocks of 128 entries further
    down, when the grid coordinate is `b`, the first loaded block `x` is rows 128 b .. 128 b + 127 of `u` and the second
    loaded block `y` is all of `u`: row `p` of `x` is row `b · 128 + p` of `u`, row `j` of `y` is row `j` of `u`, so the
    logits of the body's row `p` are the masked logits of row `b · 128 + p` of `u`. -/
theorem stored_at (g : grid1.Coords) (x : Vec Ideal S128x256 .bf16) (y : Vec Ideal S8192x256 .bf16)
    (u : S8192x256.Idx → EReal) (b : Nat) (hg : (g 0).val = b)
    (hx : ∀ (p : Fin 128) (k : Fin 256) (i : S8192x256.Idx), (i 0).val = b * 128 + p.val → (i 1).val = k.val → x (ix2 p k) = u i)
    (hy : ∀ (r : Fin 8192) (k : Fin 256) (i : S8192x256.Idx), (i 0).val = r.val → (i 1).val = k.val → y (ix2 r k) = u i)
    (j : S128x1.Idx) (i : S8192x1.Idx) (h0 : (i 0).val = b * 128 + (j 0).val) :
    k1_pay1 (F := Ideal) g x y j = rowLosses u i := by
  obtain ⟨p, q, rfl⟩ : ∃ (p : Fin 128) (q : Fin 1), j = ix2 p q := ⟨j 0, j 1, eq_ix2 j⟩
  obtain rfl : q = 0 := Subsingleton.elim _ _
  have hr : ((i 0 : Fin 8192)).val = (g 0).val * 128 + p.val := by rw [hg]; exact h0
  rw [Cert.KernelIdeal.PayValue.k1_pay1_apply g x y p (i 0) hr]
  unfold rowLosses Cert.Spec.logitK
  congr 1
  funext jj
  have hxr : (fun k => x (ix2 p k)) = fun k => u (ix2 (n0 := 8192) (n1 := 256) (i 0) k) :=
    funext fun k => hx p k _ h0 rfl
  have hyr : (fun k => y (ix2 jj k)) = fun k => u (ix2 (n0 := 8192) (n1 := 256) jj k) :=
    funext fun k => hy jj k _ rfl rfl
  rw [hxr, hyr]

variable (V : (c : Dev nD) → (b : Ref sig .tc) → Buf (Elt Ideal) ((c : Thread nD τ).loc b))

/-- The grid's one coordinate and the printed index maps over the grid: the coordinate of point `t` is `t`; the first
    input's and the output's block index is (t, 0), the second input's is (0, 0). -/
theorem index_facts : ∀ t : Fin cfg1.N, ((grid1.coords t) 0).val = t.val
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the row losses. -/
theorem flushed_eq (c : Dev nD) (t : Fin cfg1.N) :
    (dat V c).flushed 2 t = ((cfg1.win 2).blk t).view.read (Elt Ideal) (rowLosses (V c main_v1)) := by
  show (cfg1.win 2).cut (grid1.coords t) ((dat V c).after 2 t) = _
  rw [dat_after_out]
  unfold stored
  rw [View.canon_unit_zero zero_start]
  simp only [View.ld_unit_zero (S := S128x256) zero_start, View.ld_unit_zero (S := S8192x256) zero_start]
  obtain ⟨eg, e0, e1, e2, e3, e4, e5⟩ := index_facts t
  funext j
  refine stored_at (grid1.coords t) _ _ (V c main_v1) t.val eg (fun p k i hi0 hi1 => ?_) (fun r k i hi0 hi1 => ?_) j _ ?_
  · show V c main_v1 (((cfg1.win 0).blk t).view.emb (ix2 p k)) = V c main_v1 i
    congr 1
    funext a; apply Fin.ext
    match a with
    | ⟨0, _⟩ => show win1_0.index t (0 : Fin 2) * 128 + 1 * p.val = (i 0).val; omega
    | ⟨1, _⟩ => show win1_0.index t (1 : Fin 2) * 256 + 1 * k.val = (i 1).val; omega
  · show V c main_v1 (((cfg1.win 1).blk t).view.emb (ix2 r k)) = V c main_v1 i
    congr 1
    funext a; apply Fin.ext
    match a with
    | ⟨0, _⟩ => show win1_1.index t (0 : Fin 2) * 8192 + 1 * r.val = (i 0).val; omega
    | ⟨1, _⟩ => show win1_1.index t (1 : Fin 2) * 256 + 1 * k.val = (i 1).val; omega
  · show win1_2.index t (0 : Fin 2) * 128 + 1 * (j 0).val = t.val * 128 + (j 0).val; omega

/-- An index of the output is in point `t`'s block iff each coordinate is in the block's range on its axis. -/
theorem mem_block (t : Fin cfg1.N) (i : S8192x1.Idx) :
    i ∈ ((cfg1.win 2).blk t).view.set ↔ ∀ a : Fin 2, win1_2.index t a * S128x1.size a ≤ (i a).val ∧ (i a).val < win1_2.index t a * S128x1.size a + S128x1.size a := by
  show i ∈ ((View.whole main_v2).slice (win1_2.rect t)).set ↔ _
  rw [View.set_slice_whole, Rect.mem_set_unit]
  exact Iff.rfl

/-- Every index is in the block of the point that owns its row: row `r` belongs to point `r / 128`. -/
theorem covered (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  have hN : cfg1.N = 64 := N_1
  refine ⟨⟨(i 0).val / 128, by rw [hN]; omega⟩, flush1_2 _, ?_⟩
  rw [mem_block]
  obtain ⟨eg, e0, e1, e2, e3, e4, e5⟩ := index_facts ⟨(i 0).val / 128, by rw [hN]; omega⟩
  intro a
  match a with
  | ⟨0, _⟩ => show win1_2.index _ (0 : Fin 2) * 128 ≤ (i 0).val ∧ (i 0).val < win1_2.index _ (0 : Fin 2) * 128 + 128; rw [e4]; show (i 0).val / 128 * 128 ≤ (i 0).val ∧ (i 0).val < (i 0).val / 128 * 128 + 128; omega
  | ⟨1, _⟩ => show win1_2.index _ (1 : Fin 2) * 1 ≤ (i 1).val ∧ (i 1).val < win1_2.index _ (1 : Fin 2) * 1 + 1; rw [e5]; omega

/-- The array of row losses after the region. -/
theorem final (c : Dev nD) : (dat V c).arrAt 2 cfg1.N = rowLosses (V c main_v1) :=
  (dat V c).arrAt_eq_of_cover 2 (rowLosses (V c main_v1)) (fun t _ => flushed_eq V c t) covered

end Cert.KernelIdeal.RowLoss

end
-- ==== Proof.TailValue.lean ====
/-
  The kernel program's host tail: the sum of the 8192 row losses, started from an explicit zero, divided by the
  count. A host sum over both axes of an 8192 x 1 array lands in a scalar, whose one index collects every entry,
  so it is the initial value plus the sum over all indices; the second axis has one coordinate, so that sum is
  the sum over the 8192 rows.
-/
import proofs.«157822_j81604378624062_1_alg».proof.KernelIdeal
import proofs.«157822_j81604378624062_1_alg».proof.Proof.Spec
import Idealize.ShloMosaic.PureOps.Ideal.Laws
import Idealize.ShloMosaic.Lib.ValueIdx

noncomputable section

namespace Cert.KernelIdeal.Tail

open Idealize.ShloMosaic Cert.KernelIdeal Cert.KernelIdeal.Facts₀

/-- A sum over the indices of an 8192 x 1 array is the sum over its rows. -/
theorem sum_rows {M : Type*} [AddCommMonoid M] (x : S8192x1.Idx → M) :
    ∑ j : S8192x1.Idx, x j = ∑ r : Fin 8192, x (ValueIdx.ix2 r (0 : Fin 1)) := by
  rw [ValueIdx.sum_idx2 (n0 := 8192) (n1 := 1) x]
  exact Finset.sum_congr rfl fun r _ => Fin.sum_univ_one _

/-- The host tail of the kernel program, read on the extended reals: the mean of the row losses. -/
theorem tail_apply [Facts₀] (x : FVec Ideal S8192x1 .f32) :
    Host.divf (F := Ideal)
        (Host.reduceAdd (F := Ideal) x (constant (F := Ideal) S_ .f32 0x00000000#32) reducesTo_S8192x1_S_d0_1 h_S_)
        (constant (F := Ideal) S_ .f32 0x46000000#32)
      = fun _ => Ideal.div (0 + ∑ r : Fin 8192, x (ValueIdx.ix2 r (0 : Fin 1))) Cert.Spec.count := by
  funext i
  show Ideal.div (Ideal.hostReduceAdd reducesTo_S8192x1_S_d0_1 x (Ideal.ofBits .f32 0x00000000#32) i)
      (Ideal.ofBits .f32 0x46000000#32) = _
  rw [Ideal.hostReduceAdd_total reducesTo_S8192x1_S_d0_1 (fun b => b.elim0) x _ i, Ideal.ofBits_zero_f32,
    sum_rows x]
  rfl

end Cert.KernelIdeal.Tail

end
-- ==== Proof.WholeValue.lean ====
/-
  The idealized kernel's result as the specification's function of the argument arrays.

  The stacking puts the two arguments' rows one above the other; the first region leaves every row scaled to unit
  length; the second leaves, per row, its log-sum-exp of logits minus the logit against its partner row; the host sums
  the 8192 row losses from zero and divides by 8192: the specification's `lossK` of the stacked rows.
-/
import proofs.«157822_j81604378624062_1_alg».proof.Proof.WholeFrame
import proofs.«157822_j81604378624062_1_alg».proof.Proof.NormFinal
import proofs.«157822_j81604378624062_1_alg».proof.Proof.RowFinal
import proofs.«157822_j81604378624062_1_alg».proof.Proof.TailValue
import proofs.«157822_j81604378624062_1_alg».proof.Proof.Spec
import Idealize.ShloMosaic.Lib.StableHlo.Run
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The two arguments' rows stacked, on core `c`. -/
def stacked (c : Dev nD) : S8192x256.Idx → EReal :=
  concatenate S8192x256 0 [⟨S4096x256, m ((c : Thread nD τ).loc main_arg0)⟩, ⟨S4096x256, m ((c : Thread nD τ).loc main_arg1)⟩]
    concatenates_S4096x256_S4096x256_S8192x256_d0

/-- The stacked rows as the specification indexes them. -/
def stackedRows (c : Dev nD) : Cert.Spec.Rows := fun r k => stacked m c (ix2 r k)

/-- The first region is entered with the stacked array in place. -/
theorem entry_stacked (c : Dev nD) : V1 m c main_v0 = stacked m c := by
  show StableHlo.after hostOps0 (W0 m c) (Proc.devRef .tc main_v0) = _
  after_results
  rfl

/-- The second region is entered with the normalized array in place. -/
theorem entry_normalized (c : Dev nD) : V2 m c main_v1 = Norm.normalized (stacked m c) := by
  rw [← entry_stacked]
  exact (W2_arr m c 1).trans (Norm.final (V1 m) c)

/-- The host tail is entered with the row losses in place. -/
theorem entry_losses (c : Dev nD) : V3 m c main_v2 = RowLoss.rowLosses (Norm.normalized (stacked m c)) := by
  rw [W3_out, RowLoss.final, entry_normalized]

/-- The result buffer at the end. -/
theorem result (c : Dev nD) : W4 m c (Proc.devRef .tc main_v4) = fun _ => Cert.Spec.lossK (stackedRows m c) := by
  show StableHlo.after hostOps2 (W3 m c) (Proc.devRef .tc main_v4) = _
  after_results
  have e := entry_losses m c
  show Host.divf (F := Ideal) (Host.reduceAdd (F := Ideal) (V3 m c main_v2) _ reducesTo_S8192x1_S_d0_1 h_S_) _ = _
  rw [e, Tail.tail_apply]
  rfl

/-- The run with the result named: the value claim's kernel half. -/
theorem value_run : θ_run defs (onTc (τ := τ) (main (F := Ideal))) ⟨m, fun _ => 0, ρ⟩ (fun r => ∀ c : Dev nD,
      r.2.mem ((c.tc : Thread nD τ).loc main_v4) = (fun _ => Cert.Spec.lossK (stackedRows m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_v4 (by decide))).trans (result m c),
       (h c _ (mem_uc main_arg0 (by decide))).trans (W4_untouched m c main_arg0 (by decide) (by decide) (by decide) (by decide) (by decide) (by decide) (by decide)),
       (h c _ (mem_uc main_arg1 (by decide))).trans (W4_untouched m c main_arg1 (by decide) (by decide) (by decide) (by decide) (by decide) (by decide) (by decide))⟩)
    (run m ρ)

end Cert.KernelIdeal.Whole

end
-- ==== Proof.RefRunOps.lean ====
import proofs.«157822_j81604378624062_1_alg».proof.Proof.Gen.ReferenceIdeal
import Idealize.ShloMosaic.Lib.StableHlo.Run

/-! The reference program as a list of its 74 host operations, and the same list cut into seven consecutive
    stretches. Each stretch ends where few values are still to be read by later operations, so that what a
    stretch computes can be stated from a handful of values at its entry. -/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 74 operations, in order (an outlined function's operations stand in its call's place). -/
abbrev ops : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v0) (TRef.of (T := ⟨S8192x256, .f32⟩) main_v0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x256 ![0, 1] bcast_S8192x1_S8192x256_0_1 : (⟨S8192x1, .f32⟩ : BufTy).Contents (Elt F) → (⟨S8192x256, .f32⟩ : BufTy).Contents (Elt F)),
    binary main_v0 main_v4 main_v5 (Host.divf : (⟨S8192x256, .f32⟩ : BufTy).Contents (Elt F) → (⟨S8192x256, .f32⟩ : BufTy).Contents (Elt F) → (⟨S8192x256, .f32⟩ : BufTy).Contents (Elt F)),
    binary main_v5 main_v5 main_v6 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    nullary main_cst_0 (constant S_ .f32 0x3F000000#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xCE6E6B28#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v13) (TRef.of (T := ⟨S8192x8192, .f32⟩) main_call1_v1) (TRef.of (T := ⟨S8192x8192, .f32⟩) main_v8) (TRef.of (T := ⟨S8192x8192, .f32⟩) main_v14) select,
    nullary main_v15 (iotaInDim S4096 32 0),
    nullary main_c_2 (constantI S_ 32 4096#32),
    unary main_c_2 main_v16 (broadcastInDim S4096 ![] bcast_S_S4096 : (⟨S_, .i32⟩ : BufTy).Contents (Elt F) → (⟨S4096, .i32⟩ : BufTy).Contents (Elt F)),
    binary main_v15 main_v16 main_v17 (addi : (⟨S4096, .i32⟩ : BufTy).Contents (Elt F) → (⟨S4096, .i32⟩ : BufTy).Contents (Elt F) → (⟨S4096, .i32⟩ : BufTy).Contents (Elt F)),
    nullary main_v18 (iotaInDim S4096 32 0),
    binary main_v17 main_v18 main_v19 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v20) subf,
    unary main_v19 main_v21 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v21) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v21) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v21) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1,
    TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_),
    TRef.binary (TRef.of (T := ⟨S8192x8192, .f32⟩) main_v20) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v22) select,
    nullary main_cst_3 (constant S_ .f32 0x00000000#32),
    binary main_v22 main_cst_3 main_v23 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)),
    nullary main_cst_4 (constant S_ .f32 0x46000000#32),
    binary main_v24 main_cst_4 main_v25 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., nullary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., unary_bufs_sub .., nullary_bufs_sub .., binary_bufs_sub ..⟩

/-- Operations 0–10: the two halves joined, each row's norm, the rows divided by it. -/
abbrev opsA : List (HloOp τ sig (Elt F)) :=
  [ binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v0) (TRef.of (T := ⟨S8192x256, .f32⟩) main_v0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x256 ![0, 1] bcast_S8192x1_S8192x256_0_1 : (⟨S8192x1, .f32⟩ : BufTy).Contents (Elt F) → (⟨S8192x256, .f32⟩ : BufTy).Contents (Elt F)),
    binary main_v0 main_v4 main_v5 (Host.divf : (⟨S8192x256, .f32⟩ : BufTy).Contents (Elt F) → (⟨S8192x256, .f32⟩ : BufTy).Contents (Elt F) → (⟨S8192x256, .f32⟩ : BufTy).Contents (Elt F)) ]

/-- Operations 11–24: all pairwise products of rows, divided by the temperature, the diagonal masked. -/
abbrev opsB : List (HloOp τ sig (Elt F)) :=
  [ binary main_v5 main_v5 main_v6 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    nullary main_cst_0 (constant S_ .f32 0x3F000000#32),
    unary main_cst_0 main_v7 (broadcastInDim S8192x8192 ![] bcast_S_S8192x8192 : (⟨S_, .f32⟩ : BufTy).Contents (Elt F) → (⟨S8192x8192, .f32⟩ : BufTy).Contents (Elt F)),
    binary main_v6 main_v7 main_v8 (Host.divf : (⟨S8192x8192, .f32⟩ : BufTy).Contents (Elt F) → (⟨S8192x8192, .f32⟩ : BufTy).Contents (Elt F) → (⟨S8192x8192, .f32⟩ : BufTy).Contents (Elt F)),
    nullary main_v9 (iotaInDim S8192x8192 32 0),
    nullary main_v10 (iotaInDim S8192x8192 32 1),
    nullary main_c (constantI S_ 32 0#32),
    unary main_c main_v11 (broadcastInDim S8192x8192 ![] bcast_S_S8192x8192 : (⟨S_, .i32⟩ : BufTy).Contents (Elt F) → (⟨S8192x8192, .i32⟩ : BufTy).Contents (Elt F)),
    binary main_v9 main_v11 main_v12 (addi : (⟨S8192x8192, .i32⟩ : BufTy).Contents (Elt F) → (⟨S8192x8192, .i32⟩ : BufTy).Contents (Elt F) → (⟨S8192x8192, .i32⟩ : BufTy).Contents (Elt F)),
    binary main_v12 main_v10 main_v13 (cmpi .eq : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xCE6E6B28#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v13) (TRef.of (T := ⟨S8192x8192, .f32⟩) main_call1_v1) (TRef.of (T := ⟨S8192x8192, .f32⟩) main_v8) (TRef.of (T := ⟨S8192x8192, .f32⟩) main_v14) select ]

/-- Operations 25–30: each row's partner index. -/
abbrev opsC : List (HloOp τ sig (Elt F)) :=
  [ nullary main_v15 (iotaInDim S4096 32 0),
    nullary main_c_2 (constantI S_ 32 4096#32),
    unary main_c_2 main_v16 (broadcastInDim S4096 ![] bcast_S_S4096 : (⟨S_, .i32⟩ : BufTy).Contents (Elt F) → (⟨S4096, .i32⟩ : BufTy).Contents (Elt F)),
    binary main_v15 main_v16 main_v17 (addi : (⟨S4096, .i32⟩ : BufTy).Contents (Elt F) → (⟨S4096, .i32⟩ : BufTy).Contents (Elt F) → (⟨S4096, .i32⟩ : BufTy).Contents (Elt F)),
    nullary main_v18 (iotaInDim S4096 32 0),
    binary main_v17 main_v18 main_v19 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

/-- Operations 31–45: each row minus its own log-sum-exp. -/
abbrev opsD : List (HloOp τ sig (Elt F)) :=
  [ TRef.nullary (TRef.of (T := ⟨S_, .f32⟩) main_call2_cst) (constant S_ .f32 0xFF800000#32),
    TRef.binary (TRef.of (T := ⟨S8192x8192, .f32⟩) main_v14) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v14) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v20) subf ]

/-- Operations 46–54: the partner index wrapped into range and given the gather's shape. -/
abbrev opsE : List (HloOp τ sig (Elt F)) :=
  [ unary main_v19 main_v21 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8192x1, .i32⟩) main_call3_v0) (broadcastInDim S8192x1 ![] bcast_S_S8192x1),
    TRef.binary (TRef.of (T := ⟨S8192x1, .i32⟩) main_v21) (TRef.of (T := ⟨S8192x1, .i32⟩) main_call3_v0) (TRef.of (T := ⟨S8192x1, .i1⟩) main_call3_v1) (cmpi .slt),
    TRef.nullary (TRef.of (T := ⟨S_, .i32⟩) main_call3_c_0) (constantI S_ 32 8192#32),
    TRef.unary (TRef.of (T := ⟨S_, .i32⟩) main_call3_c_0) (TRef.of (T := ⟨S8192x1, .i32⟩) main_call3_v2) (broadcastInDim S8192x1 ![] bcast_S_S8192x1),
    TRef.binary (TRef.of (T := ⟨S8192x1, .i32⟩) main_v21) (TRef.of (T := ⟨S8192x1, .i32⟩) main_call3_v2) (TRef.of (T := ⟨S8192x1, .i32⟩) main_call3_v3) addi,
    TRef.ternary (TRef.of (T := ⟨S8192x1, .i1⟩) main_call3_v1) (TRef.of (T := ⟨S8192x1, .i32⟩) main_call3_v3) (TRef.of (T := ⟨S8192x1, .i32⟩) main_v21) (TRef.of (T := ⟨S8192x1, .i32⟩) main_call3_v4) select,
    TRef.reshape (TRef.of (T := ⟨S8192x1, .i32⟩) main_call3_v4) (TRef.of (T := ⟨S8192x1x1, .i32⟩) main_call3_v5) rfl shapeCasts_S8192x1_S8192x1x1 ]

/-- Operations 55–64: whether the partner index lies within bounds. -/
abbrev opsF : List (HloOp τ sig (Elt F)) :=
  [ TRef.nullary (TRef.of (T := ⟨S1, .i32⟩) main_call3_c_1) (constantI S1 32 8191#32),
    TRef.nullary (TRef.of (T := ⟨S_, .i32⟩) main_call3_c_2) (constantI S_ 32 0#32),
    TRef.unary (TRef.of (T := ⟨S_, .i32⟩) main_call3_c_2) (TRef.of (T := ⟨S8192x1x1, .i32⟩) main_call3_v6) (broadcastInDim S8192x1x1 ![] bcast_S_S8192x1x1),
    TRef.binary (TRef.of (T := ⟨S8192x1x1, .i32⟩) main_call3_v5) (TRef.of (T := ⟨S8192x1x1, .i32⟩) main_call3_v6) (TRef.of (T := ⟨S8192x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8192x1x1, .i32⟩) main_call3_v9) (broadcastInDim S8192x1x1 ![0, 1, 2] bcast_S1x1x1_S8192x1x1_0_1_2),
    TRef.binary (TRef.of (T := ⟨S8192x1x1, .i32⟩) main_call3_v5) (TRef.of (T := ⟨S8192x1x1, .i32⟩) main_call3_v9) (TRef.of (T := ⟨S8192x1x1, .i1⟩) main_call3_v10) (cmpi .sle),
    TRef.binary (TRef.of (T := ⟨S8192x1x1, .i1⟩) main_call3_v7) (TRef.of (T := ⟨S8192x1x1, .i1⟩) main_call3_v10) (TRef.of (T := ⟨S8192x1x1, .i1⟩) main_call3_v11) andi,
    TRef.nullary (TRef.of (T := ⟨S_, .i1⟩) main_call3_c_3) (constantI S_ 1 1#1),
    TRef.binary (TRef.of (T := ⟨S8192x1x1, .i1⟩) main_call3_v11) (TRef.of (T := ⟨S_, .i1⟩) main_call3_c_3) (TRef.of (T := ⟨S8192x1, .i1⟩) main_call3_v12) (fun x v => Host.reduce IntOp.andi x v reducesTo_S8192x1x1_S8192x1_d2 h_S_) ]

/-- Operations 65–73: each row's entry at its partner, their sum, negated, divided by the count. -/
abbrev opsG : List (HloOp τ sig (Elt F)) :=
  [ TRef.binary (TRef.of (T := ⟨S8192x8192, .f32⟩) main_v20) (TRef.of (T := ⟨S8192x1x1, .i32⟩) main_call3_v5) (TRef.of (T := ⟨S8192x1, .f32⟩) main_call3_v13) (fun x i => Host.gather gather_S8192x8192_S8192x1x1_S8192x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S8192x1, .f32⟩) main_call3_v14) (broadcastInDim S8192x1 ![] bcast_S_S8192x1),
    TRef.ternary (TRef.of (T := ⟨S8192x1, .i1⟩) main_call3_v12) (TRef.of (T := ⟨S8192x1, .f32⟩) main_call3_v13) (TRef.of (T := ⟨S8192x1, .f32⟩) main_call3_v14) (TRef.of (T := ⟨S8192x1, .f32⟩) main_v22) select,
    nullary main_cst_3 (constant S_ .f32 0x00000000#32),
    binary main_v22 main_cst_3 main_v23 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)),
    nullary main_cst_4 (constant S_ .f32 0x46000000#32),
    binary main_v24 main_cst_4 main_v25 (Host.divf : (⟨S_, .f32⟩ : BufTy).Contents (Elt F) → (⟨S_, .f32⟩ : BufTy).Contents (Elt F) → (⟨S_, .f32⟩ : BufTy).Contents (Elt F)) ]

/-- The whole list is its seven stretches, one after the other. -/
theorem ops_split : (ops : List (HloOp τ sig (Elt F))) = opsA ++ (opsB ++ (opsC ++ (opsD ++ (opsE ++ (opsF ++ opsG))))) := rfl

/-- Moving a value to a buffer's own type and back is the identity. -/
theorem ofBuf_toBuf {T : BufTy} (x : TRef sig T) (v : T.Contents (Elt F)) : x.ofBuf (x.toBuf v) = v := by
  obtain ⟨r, rfl, _, _⟩ := x
  rfl

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.RefRun

end
-- ==== Proof.RefRunA.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From any contents holding the two arguments, the first stretch leaves the normalized rows at their stage. -/
theorem stretchA (W : Valuation τ sig (Elt F)) (x0 x1 : (⟨S4096x256, .f32⟩ : BufTy).Contents (Elt F))
    (h0 : W (Proc.devRef .tc main_arg0) = x0) (h1 : W (Proc.devRef .tc main_arg1) = x1) :
    after opsA W (Proc.devRef .tc main_v5) = val_main_v5 x0 x1 := by
  subst h0 h1
  after_results_simp
  rfl

end Cert.RefRun

end
-- ==== Proof.RefRunB.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From the normalized rows, the second stretch leaves the masked similarities at their stage. -/
theorem stretchB (W : Valuation τ sig (Elt F)) (x0 x1 : (⟨S4096x256, .f32⟩ : BufTy).Contents (Elt F))
    (h5 : W (Proc.devRef .tc main_v5) = val_main_v5 x0 x1) :
    after opsB W (Proc.devRef .tc main_v14) = val_main_v14 x0 x1 := by
  after_results_simp
  rw [h5]
  rfl

end Cert.RefRun

end
-- ==== Proof.RefRunC.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The third stretch computes the partner indices (which depend on no argument) and leaves the masked
    similarities where they are. -/
theorem stretchC (W : Valuation τ sig (Elt F)) (x0 x1 : (⟨S4096x256, .f32⟩ : BufTy).Contents (Elt F))
    (h14 : W (Proc.devRef .tc main_v14) = val_main_v14 x0 x1) :
    after opsC W (Proc.devRef .tc main_v14) = val_main_v14 x0 x1
    ∧ after opsC W (Proc.devRef .tc main_v19) = val_main_v19 (F := F) := by
  refine ⟨?_, ?_⟩
  · after_results_simp
    exact h14
  · after_results_simp
    rfl

end Cert.RefRun

end
-- ==== Proof.RefRunD.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From the masked similarities, the fourth stretch leaves each row minus its log-sum-exp at its stage, and
    the partner indices where they are. -/
theorem stretchD (W : Valuation τ sig (Elt F)) (x0 x1 : (⟨S4096x256, .f32⟩ : BufTy).Contents (Elt F))
    (h14 : W (Proc.devRef .tc main_v14) = val_main_v14 x0 x1)
    (h19 : W (Proc.devRef .tc main_v19) = val_main_v19 (F := F)) :
    after opsD W (Proc.devRef .tc main_v19) = val_main_v19 (F := F)
    ∧ after opsD W (Proc.devRef .tc main_v20) = val_main_v20 x0 x1 := by
  refine ⟨?_, ?_⟩
  · after_results_simp
    exact h19
  · after_results_simp
    simp only [ofBuf_toBuf]
    rw [h14]
    -- both sides are now the same fifteen operations applied to the masked similarities
    unfold val_main_v20 val_main_call2_v10 val_main_call2_v9 val_main_call2_v8 val_main_call2_v7 val_main_call2_cst_1
      val_main_call2_v6 val_main_call2_v5 val_main_call2_v4 val_main_call2_v3 val_main_call2_v2 val_main_call2_v1
      val_main_call2_cst_0 val_main_call2_v0 val_main_call2_cst
    generalize val_main_v14 x0 x1 = v14
    rfl

end Cert.RefRun

end
-- ==== Proof.RefRunE.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From the partner indices, the fifth stretch leaves the gather's index array at its stage, and the
    log-softmax where it is. -/
theorem stretchE (W : Valuation τ sig (Elt F)) (x0 x1 : (⟨S4096x256, .f32⟩ : BufTy).Contents (Elt F))
    (h19 : W (Proc.devRef .tc main_v19) = val_main_v19 (F := F))
    (h20 : W (Proc.devRef .tc main_v20) = val_main_v20 x0 x1) :
    after opsE W (Proc.devRef .tc main_v20) = val_main_v20 x0 x1
    ∧ after opsE W (Proc.devRef .tc main_call3_v5) = val_main_call3_v5 (F := F) := by
  refine ⟨?_, ?_⟩
  · after_results_simp
    exact h20
  · after_results_simp
    rw [h19]
    rfl

end Cert.RefRun

end
-- ==== Proof.RefRunF.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From the gather's index array, the sixth stretch leaves the in-bounds mask at its stage, and the
    log-softmax and the index array where they are. -/
theorem stretchF (W : Valuation τ sig (Elt F)) (x0 x1 : (⟨S4096x256, .f32⟩ : BufTy).Contents (Elt F))
    (h20 : W (Proc.devRef .tc main_v20) = val_main_v20 x0 x1)
    (hi : W (Proc.devRef .tc main_call3_v5) = val_main_call3_v5 (F := F)) :
    after opsF W (Proc.devRef .tc main_v20) = val_main_v20 x0 x1
    ∧ after opsF W (Proc.devRef .tc main_call3_v5) = val_main_call3_v5 (F := F)
    ∧ after opsF W (Proc.devRef .tc main_call3_v12) = val_main_call3_v12 (F := F) := by
  refine ⟨?_, ?_, ?_⟩
  · after_results_simp
    exact h20
  · after_results_simp
    exact hi
  · after_results_simp
    simp only [ofBuf_toBuf]
    rw [hi]
    -- both sides are now the same ten operations applied to the index array
    unfold val_main_call3_v12 val_main_call3_c_3 val_main_call3_v11 val_main_call3_v10 val_main_call3_v9 val_main_call3_v8
      val_main_call3_v7 val_main_call3_v6 val_main_call3_c_2 val_main_call3_c_1
    generalize val_main_call3_v5 (F := F) = vi
    rfl

end Cert.RefRun

end
-- ==== Proof.RefRunG.lean ====
import proofs.«157822_j81604378624062_1_alg».proof.Proof.RefRunOps
import proofs.«157822_j81604378624062_1_alg».proof.Proof.RefReadP

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From the log-softmax, the index array and the in-bounds mask, the last stretch leaves the loss at its stage. -/
theorem stretchG (W : Valuation τ sig (Elt F)) (x0 x1 : (⟨S4096x256, .f32⟩ : BufTy).Contents (Elt F))
    (h20 : W (Proc.devRef .tc main_v20) = val_main_v20 x0 x1)
    (hi : W (Proc.devRef .tc main_call3_v5) = val_main_call3_v5 (F := F))
    (hm : W (Proc.devRef .tc main_call3_v12) = val_main_call3_v12 (F := F)) :
    after opsG W (Proc.devRef .tc main_v25) = val_main_v25 x0 x1 := by
  after_results_simp
  rw [h20, hi, hm]
  rfl

end Cert.RefRun

end
-- ==== Proof.RefRun.lean ====
import proofs.«157822_j81604378624062_1_alg».proof.Proof.RefRunOps
import proofs.«157822_j81604378624062_1_alg».proof.Proof.RefReadP
import proofs.«157822_j81604378624062_1_alg».proof.Proof.RefRunA
import proofs.«157822_j81604378624062_1_alg».proof.Proof.RefRunB
import proofs.«157822_j81604378624062_1_alg».proof.Proof.RefRunC
import proofs.«157822_j81604378624062_1_alg».proof.Proof.RefRunD
import proofs.«157822_j81604378624062_1_alg».proof.Proof.RefRunE
import proofs.«157822_j81604378624062_1_alg».proof.Proof.RefRunF
import proofs.«157822_j81604378624062_1_alg».proof.Proof.RefRunG

noncomputable section

namespace Cert.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- No operation writes an argument: after the whole program each still holds what it held. -/
theorem keep_arg0 (W : Valuation τ sig (Elt F)) :
    after ops W (Proc.devRef .tc main_arg0) = W (Proc.devRef .tc main_arg0) := by
  after_results_simp

theorem keep_arg1 (W : Valuation τ sig (Elt F)) :
    after ops W (Proc.devRef .tc main_arg1) = W (Proc.devRef .tc main_arg1) := by
  after_results_simp

/-- After the whole program, from any contents, the result buffer holds the last stage of the two arguments'
    contents: the seven stretches in order, each handing the next the few values it reads. -/
theorem value (W : Valuation τ sig (Elt F)) :
    after ops W (Proc.devRef .tc main_v25)
      = val_main_v25 (F := F) (W (Proc.devRef .tc main_arg0)) (W (Proc.devRef .tc main_arg1)) := by
  rw [ops_split]
  simp only [after_append]
  generalize hx0 : W (Proc.devRef .tc main_arg0) = x0
  generalize hx1 : W (Proc.devRef .tc main_arg1) = x1
  have hA := stretchA W x0 x1 hx0 hx1
  generalize after opsA W = WA at hA ⊢
  have hB := stretchB WA x0 x1 hA
  generalize after opsB WA = WB at hB ⊢
  obtain ⟨hC14, hC19⟩ := stretchC WB x0 x1 hB
  generalize after opsC WB = WC at hC14 hC19 ⊢
  obtain ⟨hD19, hD20⟩ := stretchD WC x0 x1 hC14 hC19
  generalize after opsD WC = WD at hD19 hD20 ⊢
  obtain ⟨hE20, hEi⟩ := stretchE WD x0 x1 hD19 hD20
  generalize after opsE WD = WE at hE20 hEi ⊢
  obtain ⟨hF20, hFi, hFm⟩ := stretchF WE x0 x1 hE20 hEi
  generalize after opsF WE = WF at hF20 hFi hFm ⊢
  exact stretchG WF x0 x1 hF20 hFi hFm

/-- On every device, for any float values, from any memory with zero counters: every weakly fair execution of the
    reference program terminates with the result buffer at the last stage of the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = val_main_v25 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (value _), (h c main_arg0).trans (keep_arg0 _), (h c main_arg1).trans (keep_arg1 _)⟩)
    (run_seq scopedRefs_eq scopedSems_eq defs main (fun _ => ops) main_eq (fun _ => ops_sub) m ρ)

end Cert.RefRun

end
-- ==== Proof.RefUnit.lean ====
/-
  The reference's first stage, read at a row and a column: every row of the stacked input divided by its length,
  the length clamped from below. The host's sum of squares starts from an explicit zero, which is the
  specification's host form of the unit row.
-/
import proofs.«157822_j81604378624062_1_alg».proof.Proof.RefReadP
import proofs.«157822_j81604378624062_1_alg».proof.Proof.Spec

noncomputable section

namespace Cert.RefValue

open Cert.ReferenceIdeal Cert.ReferenceIdeal.Read Cert.ReferenceIdeal.Gen Idealize.ShloMosaic Idealize.ShloMosaic.ValueIdx

/-- The stacked input as the specification's rows: entry (r, k) of the concatenation of the two arguments. -/
def rows (x0 x1 : (⟨S4096x256, .f32⟩ : BufTy).Contents (Elt Ideal)) : Cert.Spec.Rows :=
  fun r k => val_main_v0 (F := Ideal) x0 x1 (ix2 r k)

/-- The squared length of row r as the host computes it: zero plus the sum of the squares. -/
theorem sumsq_at (x0 x1 : (⟨S4096x256, .f32⟩ : BufTy).Contents (Elt Ideal)) (r : Fin 8192) :
    val_main_call0_v1 (F := Ideal) x0 x1 (ix1 r) = 0 + Cert.Spec.sumsq (rows x0 x1 r) := by
  rw [val_main_call0_v1_apply, val_main_call0_cst_apply, Ideal.ofBits_def, Ideal.ofBits_zero_f32]
  refine congrArg (0 + ·) (Finset.sum_congr rfl fun k _ => ?_)
  rw [val_main_call0_v0_apply, Ideal.mulf_def]
  have e : idx_main_call0_v1 (ix1 r) k = ix2 r k :=
    funext fun a => Fin.ext (by match a with | ⟨0, _⟩ => rfl | ⟨1, _⟩ => rfl)
  rw [e]
  rfl

/-- The clamped length of row r, broadcast along the row. -/
theorem len_at (x0 x1 : (⟨S4096x256, .f32⟩ : BufTy).Contents (Elt Ideal)) (r : Fin 8192) (k : Fin 256) :
    val_main_v4 (F := Ideal) x0 x1 (ix2 r k)
      = max (Ideal.sqrt (0 + Cert.Spec.sumsq (rows x0 x1 r))) Cert.Spec.floorLen := by
  have e4 : idx_main_v4 (ix2 r k) = ix2 r (0 : Fin 1) :=
    funext fun a => Fin.ext (by match a with | ⟨0, _⟩ => rfl | ⟨1, _⟩ => rfl)
  have e2 : idx_main_call0_v2 (ix2 r (0 : Fin 1)) = ix1 r :=
    funext fun a => Fin.ext (by match a with | ⟨0, _⟩ => rfl)
  rw [val_main_v4_apply, e4, val_main_v3_apply, val_main_v1_apply, val_main_call0_v2_apply, e2, sumsq_at,
    val_main_v2_apply, val_main_cst_apply]
  simp only [Ideal.maximumf_def, Ideal.hostUnary_sqrt_def, Ideal.ofBits_def]
  rfl

/-- Entry (r, k) of the normalized rows is the specification's unit row (host form). -/
theorem unit_at (x0 x1 : (⟨S4096x256, .f32⟩ : BufTy).Contents (Elt Ideal)) (r : Fin 8192) (k : Fin 256) :
    val_main_v5 (F := Ideal) x0 x1 (ix2 r k) = Cert.Spec.unitRowH (rows x0 x1 r) k := by
  rw [val_main_v5_apply, len_at, Ideal.hostDivf_def]
  rfl

end Cert.RefValue

end
-- ==== Proof.RefLogit.lean ====
/-
  The reference's logits, read at a pair of rows: the inner product of the two unit rows divided by the temperature
  one half, with the diagonal replaced by the finite mask value. The diagonal is found by comparing two 32-bit
  counters, the row's and the column's; both are below 8192, so the comparison of the words is the comparison of
  the coordinates.
-/
import proofs.«157822_j81604378624062_1_alg».proof.Proof.RefReadP
import proofs.«157822_j81604378624062_1_alg».proof.Proof.Spec
import proofs.«157822_j81604378624062_1_alg».proof.Proof.RefUnit

noncomputable section

namespace Cert.RefValue

open Cert.ReferenceIdeal Cert.ReferenceIdeal.Read Cert.ReferenceIdeal.Gen Idealize.ShloMosaic Idealize.ShloMosaic.ValueIdx

/-- Words of two coordinates below 8192 are equal exactly when the coordinates are. -/
theorem ofNat_inj_of_lt (r j : Fin 8192) (e : BitVec.ofNat 32 r.val = BitVec.ofNat 32 j.val) : r = j := by
  have h := congrArg BitVec.toNat e
  rw [BitVec.toNat_ofNat, BitVec.toNat_ofNat] at h
  have hr := r.isLt; have hj := j.isLt
  exact Fin.ext (by omega)

/-- A select on "the row's counter plus zero equals the column's counter" is the `if` on the coordinates. -/
theorem select_diag {α : Type} (r j : Fin 8192) (a b : α) :
    Scalar.select (IntOp.cmpi .eq (IntOp.addi (BitVec.ofNat 32 r.val) 0#32) (BitVec.ofNat 32 j.val)) a b
      = if r = j then a else b := by
  show (if BitVec.ofBool (BitVec.ofNat 32 r.val + 0#32 == BitVec.ofNat 32 j.val) = 1#1 then a else b) = _
  rw [BitVec.add_zero]
  by_cases h : r = j
  · subst h
    rw [beq_self_eq_true, if_pos (rfl : r = r)]
    exact if_pos rfl
  · have hb : (BitVec.ofNat 32 r.val == BitVec.ofNat 32 j.val) = false :=
      beq_eq_false_iff_ne.2 fun e => h (ofNat_inj_of_lt r j e)
    rw [if_neg h, hb]
    exact if_neg (by decide)

/-- The inner product of unit rows r and j. -/
theorem dot_at (x0 x1 : (⟨S4096x256, .f32⟩ : BufTy).Contents (Elt Ideal)) (r j : Fin 8192) :
    val_main_v6 (F := Ideal) x0 x1 (ix2 r j)
      = Cert.Spec.dot (Cert.Spec.unitRowH (rows x0 x1 r)) (Cert.Spec.unitRowH (rows x0 x1 j)) := by
  rw [val_main_v6_apply]
  refine Finset.sum_congr rfl fun k _ => ?_
  have el : lidx_main_v6 (ix2 r j) k = ix2 r k :=
    funext fun a => Fin.ext (by match a with | ⟨0, _⟩ => rfl | ⟨1, _⟩ => rfl)
  have er : ridx_main_v6 (ix2 r j) k = ix2 j k :=
    funext fun a => Fin.ext (by match a with | ⟨0, _⟩ => rfl | ⟨1, _⟩ => rfl)
  rw [el, er, unit_at, unit_at]

/-- Entry (r, j) of the masked logits is the specification's reference logit. -/
theorem logit_at (x0 x1 : (⟨S4096x256, .f32⟩ : BufTy).Contents (Elt Ideal)) (r j : Fin 8192) :
    val_main_v14 (F := Ideal) x0 x1 (ix2 r j)
      = Cert.Spec.logitR (fun r => Cert.Spec.unitRowH (rows x0 x1 r)) r j := by
  rw [val_main_v14_apply, val_main_v13_apply, val_main_v12_apply, val_main_v9_apply, val_main_v10_apply,
    val_main_v11_apply, val_main_c_apply]
  show Scalar.select (IntOp.cmpi .eq (IntOp.addi (BitVec.ofNat 32 r.val) 0#32) (BitVec.ofNat 32 j.val)) _ _ = _
  rw [select_diag, val_main_call1_v1_apply, val_main_call1_v0_apply, val_main_cst_1_apply, val_main_v8_apply,
    dot_at, val_main_v7_apply, val_main_cst_0_apply]
  simp only [Ideal.hostDivf_def, Ideal.ofBits_def]
  rfl

end Cert.RefValue

end
-- ==== Proof.RefSoftmax.lean ====
/-
  The reference's log-softmax, read at a row and a column, over the logits as an opaque array.
  The row maximum is a host fold by maximum from the bottom element over the row's 8192 columns; the program then
  takes the maximum of that with a broadcast bottom element, subtracts it, exponentiates, sums from an explicit
  zero, takes the logarithm and subtracts again. Entry (r, j) of the result is the specification's
  log-probability of row r's logits at column j.
-/
import proofs.«157822_j81604378624062_1_alg».proof.Proof.RefReadP
import proofs.«157822_j81604378624062_1_alg».proof.Proof.Spec

noncomputable section

namespace Cert.RefValue

open Cert.ReferenceIdeal Cert.ReferenceIdeal.Read Cert.ReferenceIdeal.Gen Idealize.ShloMosaic Idealize.ShloMosaic.ValueIdx

/-- The index over row r with column k put back on the reduced axis is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The row maximum of an array y at row r: the fold by maximum from the bottom element over the row. -/
theorem hostMax_row (y : S8192x8192.Idx → EReal) (r : Fin 8192) :
    Host.reduce (FloatOps.maximumf (F := Ideal) (φ := .f32)) y (val_main_call2_cst (F := Ideal))
        reducesTo_S8192x8192_S8192_d1 h_S_ (ix1 r)
      = Finset.univ.fold max Cert.Spec.negInf (fun j : Fin 8192 => y (ix2 r j)) := by
  have h : S8192x8192.Reduces [1] S8192 := by decide
  rw [Host.reduce_eq_fold_single (FloatOps.maximumf (F := Ideal) (φ := .f32)) y _ reducesTo_S8192x8192_S8192_d1 h h_S_]
  have hf : (y ∘ h.lift (ix1 r)) = fun k : Fin 8192 => y (ix2 r k) := funext fun k => congrArg y (lift_row h r k)
  exact congrArg (fun f => Finset.fold max (Ideal.ofBits .f32 0xFF800000#32) f (Finset.univ : Finset (Fin 8192))) hf

/-- Row r's maximum as the reference computes it. -/
theorem rowmax_at (x0 x1 : (⟨S4096x256, .f32⟩ : BufTy).Contents (Elt Ideal)) (r : Fin 8192) :
    val_main_call2_v0 (F := Ideal) x0 x1 (ix1 r)
      = Finset.univ.fold max Cert.Spec.negInf (fun j : Fin 8192 => val_main_v14 (F := Ideal) x0 x1 (ix2 r j)) := by
  unfold val_main_call2_v0
  generalize val_main_v14 (F := Ideal) x0 x1 = y
  exact hostMax_row y r

/-- The value subtracted from row r's logits, broadcast along the row. -/
theorem shift_at (x0 x1 : (⟨S4096x256, .f32⟩ : BufTy).Contents (Elt Ideal)) (r j : Fin 8192) :
    val_main_call2_v4 (F := Ideal) x0 x1 (ix2 r j)
      = max Cert.Spec.negInf
          (Finset.univ.fold max Cert.Spec.negInf (fun j : Fin 8192 => val_main_v14 (F := Ideal) x0 x1 (ix2 r j))) := by
  have e4 : idx_main_call2_v4 (ix2 r j) = ix2 r (0 : Fin 1) :=
    funext fun a => Fin.ext (by match a with | ⟨0, _⟩ => rfl | ⟨1, _⟩ => rfl)
  have e3 : idx_main_call2_v3 (ix2 r (0 : Fin 1)) = ix1 r :=
    funext fun a => Fin.ext (by match a with | ⟨0, _⟩ => rfl)
  rw [val_main_call2_v4_apply, e4, val_main_call2_v3_apply, e3, val_main_call2_v2_apply, rowmax_at,
    val_main_call2_v1_apply, val_main_call2_cst_0_apply]
  simp only [Ideal.maximumf_def, Ideal.ofBits_def]
  rfl

/-- The logarithm of row r's sum of exponentials, broadcast along the row. -/
theorem logsum_at (x0 x1 : (⟨S4096x256, .f32⟩ : BufTy).Contents (Elt Ideal)) (r j : Fin 8192) :
    val_main_call2_v10 (F := Ideal) x0 x1 (ix2 r j)
      = Ideal.log (0 + ∑ k : Fin 8192, Ideal.exp (val_main_v14 (F := Ideal) x0 x1 (ix2 r k)
          - max Cert.Spec.negInf
              (Finset.univ.fold max Cert.Spec.negInf (fun j : Fin 8192 => val_main_v14 (F := Ideal) x0 x1 (ix2 r j))))) := by
  have e10 : idx_main_call2_v10 (ix2 r j) = ix2 r (0 : Fin 1) :=
    funext fun a => Fin.ext (by match a with | ⟨0, _⟩ => rfl | ⟨1, _⟩ => rfl)
  have e8 : idx_main_call2_v8 (ix2 r (0 : Fin 1)) = ix1 r :=
    funext fun a => Fin.ext (by match a with | ⟨0, _⟩ => rfl)
  rw [val_main_call2_v10_apply, e10, val_main_call2_v9_apply, val_main_call2_v8_apply, e8, val_main_call2_v7_apply,
    val_main_call2_cst_1_apply, Ideal.ofBits_def, Ideal.ofBits_zero_f32, Ideal.hostUnary_log_def]
  refine congrArg (fun s => Ideal.log (0 + s)) (Finset.sum_congr rfl fun k _ => ?_)
  have e7 : idx_main_call2_v7 (ix1 r) k = ix2 r k :=
    funext fun a => Fin.ext (by match a with | ⟨0, _⟩ => rfl | ⟨1, _⟩ => rfl)
  rw [e7, val_main_call2_v6_apply, val_main_call2_v5_apply, shift_at, Ideal.hostUnary_exp_def, Ideal.subf_def]

/-- Entry (r, j) of the log-softmax is the specification's log-probability of row r's logits at column j. -/
theorem logp_at (x0 x1 : (⟨S4096x256, .f32⟩ : BufTy).Contents (Elt Ideal)) (r j : Fin 8192) :
    val_main_v20 (F := Ideal) x0 x1 (ix2 r j)
      = Cert.Spec.rowR (fun j : Fin 8192 => val_main_v14 (F := Ideal) x0 x1 (ix2 r j)) j := by
  rw [val_main_v20_apply, val_main_call2_v5_apply, shift_at, logsum_at]
  simp only [Ideal.subf_def]
  rfl

end Cert.RefValue

end
-- ==== Proof.RefLabels.lean ====
/-
  The reference's labels and its gather along each row.
  The labels are 32-bit words: row r below 4096 has the word of r plus the word of 4096, any other row the word of
  r - 4096; either is the word of the partner row's number, a number below 8192. Such a word reads back, signed, as
  that number, so it is not negative (the branch that adds 8192 to a negative index is not taken), it lies between 0
  and 8191 (the bounds check passes, so the select after the gather keeps the gathered value), and clamping it to
  the row's extent leaves it unchanged. The gather batches over the rows and reads, in row r, the column the start
  index names: entry (r, 0) of the result is the operand at (r, partner r).
-/
import proofs.«157822_j81604378624062_1_alg».proof.Proof.RefReadP
import proofs.«157822_j81604378624062_1_alg».proof.Proof.Spec

noncomputable section

namespace Cert.RefValue

open Cert.ReferenceIdeal Cert.ReferenceIdeal.Read Cert.ReferenceIdeal.Gen Idealize.ShloMosaic Idealize.ShloMosaic.ValueIdx

/-! ## Words of numbers below 8192 -/

/-- A word of a number below 8192 reads back, signed, as that number. -/
theorem toInt_ofNat_lt (n : Nat) (h : n < 8192) : (BitVec.ofNat 32 n).toInt = (n : Int) := by
  rw [BitVec.toInt_ofNat']
  exact Int.bmod_eq_of_le (by omega) (by omega)

/-- It is not below zero … -/
theorem slt_zero (n : Nat) (h : n < 8192) : IntOp.cmpi .slt (BitVec.ofNat 32 n) 0#32 = 0#1 := by
  have h0 : (0#32 : BitVec 32).toInt = 0 := by decide
  unfold IntOp.cmpi
  simp only [BitVec.slt, toInt_ofNat_lt n h, h0]
  have : ¬ ((n : Int) < 0) := by omega
  simp [this]

/-- … it is at least zero … -/
theorem sge_zero (n : Nat) (h : n < 8192) : IntOp.cmpi .sge (BitVec.ofNat 32 n) 0#32 = 1#1 := by
  have h0 : (0#32 : BitVec 32).toInt = 0 := by decide
  unfold IntOp.cmpi
  simp only [BitVec.sle, toInt_ofNat_lt n h, h0]
  have : ((0 : Int) ≤ (n : Int)) := by omega
  simp [this]

/-- … and at most 8191. -/
theorem sle_max (n : Nat) (h : n < 8192) : IntOp.cmpi .sle (BitVec.ofNat 32 n) 8191#32 = 1#1 := by
  have h0 : (8191#32 : BitVec 32).toInt = 8191 := by decide
  unfold IntOp.cmpi
  simp only [BitVec.sle, toInt_ofNat_lt n h, h0]
  have : ((n : Int) ≤ 8191) := by omega
  simp [this]

/-- Adding the word of 4096 to the word of a number below 4096 does not wrap. -/
theorem add_half (n : Nat) (h : n < 4096) : IntOp.addi (BitVec.ofNat 32 n) 4096#32 = BitVec.ofNat 32 (n + 4096) := by
  unfold IntOp.addi
  apply BitVec.eq_of_toNat_eq
  rw [BitVec.toNat_add, BitVec.toNat_ofNat, BitVec.toNat_ofNat, BitVec.toNat_ofNat]
  omega

/-- Read signed and clamped to the last column, the word gives the number back. -/
theorem clamp_at (n : Nat) (h : n < 8192) : min (BitVec.ofNat 32 n).toInt.toNat (8192 - 1) = n := by
  rw [toInt_ofNat_lt n h, Int.toNat_natCast]
  omega

/-- A fold by `and` from 1 over words that are all 1 is 1. -/
theorem fold_andi_one {ι : Type} [DecidableEq ι] (s : Finset ι) (f : ι → BitVec 1) (hf : ∀ i, f i = 1#1) :
    s.fold IntOp.andi 1#1 f = 1#1 := by
  induction s using Finset.induction_on with
  | empty => rfl
  | insert a s ha ih => rw [Finset.fold_insert ha, ih, hf a]; rfl

/-! ## The labels -/

/-- Row r's label is the word of its partner row's number. -/
theorem label_at (r : Fin 8192) :
    val_main_v19 (F := Ideal) (ix1 r) = BitVec.ofNat 32 (Cert.Spec.partner r).val := by
  unfold val_main_v19
  by_cases h : r.val < 4096
  · refine (concatenate_pair_apply_left (0 : Fin S8192.rank) (val_main_v17 (F := Ideal)) (val_main_v18 (F := Ideal))
      concatenates_S4096_S4096_S8192_d0 (ix1 r) rfl (ix1 (⟨r.val, h⟩ : Fin 4096))
      (fun b => by match b with | ⟨0, _⟩ => rfl)).trans ?_
    rw [val_main_v17_apply, val_main_v15_apply, val_main_v16_apply, val_main_c_2_apply]
    show IntOp.addi (BitVec.ofNat 32 r.val) 4096#32 = _
    rw [add_half r.val h]
    unfold Cert.Spec.partner
    rw [dif_pos h]
  · refine (concatenate_pair_apply_right (0 : Fin S8192.rank) (val_main_v17 (F := Ideal)) (val_main_v18 (F := Ideal))
      concatenates_S4096_S4096_S8192_d0 (ix1 r) rfl rfl (ix1 (⟨r.val - 4096, by have := r.isLt; omega⟩ : Fin 4096))
      (fun b hb => by match b with | ⟨0, _⟩ => exact absurd rfl hb)
      (by show (r.val - 4096) + 4096 = r.val; omega)).trans ?_
    rw [val_main_v18_apply]
    unfold Cert.Spec.partner
    rw [dif_neg h]

/-- Row r's start index: its label, the wrap-around branch not taken. -/
theorem start_at (r : Fin 8192) :
    val_main_call3_v5 (F := Ideal) (ix3 r (0 : Fin 1) (0 : Fin 1)) = BitVec.ofNat 32 (Cert.Spec.partner r).val := by
  have e5 : idx_main_call3_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have e21 : idx_main_v21 (ix2 r (0 : Fin 1)) = ix1 r :=
    funext fun a => Fin.ext (by match a with | ⟨0, _⟩ => rfl)
  rw [val_main_call3_v5_apply, e5, val_main_call3_v4_apply, val_main_call3_v1_apply, val_main_v21_apply, e21, label_at,
    val_main_call3_v0_apply, val_main_call3_c_apply, slt_zero _ (Cert.Spec.partner r).isLt, select_zero]

/-- Every start index passes the bounds check. -/
theorem inrange_at (i : S8192x1x1.Idx) : val_main_call3_v11 (F := Ideal) i = 1#1 := by
  obtain ⟨r, b, c, rfl⟩ : ∃ (r : Fin 8192) (b : Fin 1) (c : Fin 1), i = ix3 r b c := ⟨i 0, i 1, i 2, eq_ix3 i⟩
  obtain rfl : b = 0 := Subsingleton.elim _ _
  obtain rfl : c = 0 := Subsingleton.elim _ _
  rw [val_main_call3_v11_apply, val_main_call3_v7_apply, val_main_call3_v10_apply, start_at,
    val_main_call3_v6_apply, val_main_call3_c_2_apply, val_main_call3_v9_apply, val_main_call3_v8_apply,
    val_main_call3_c_1_apply, sge_zero _ (Cert.Spec.partner r).isLt, sle_max _ (Cert.Spec.partner r).isLt]
  rfl

/-- The reduction of the check over its last axis (of extent one) is 1 on every row. -/
theorem check_at (r : Fin 8192) : val_main_call3_v12 (F := Ideal) (ix2 r (0 : Fin 1)) = 1#1 := by
  unfold val_main_call3_v12
  have h : S8192x1x1.Reduces [2] S8192x1 := by decide
  rw [Host.reduce_eq_fold_single IntOp.andi _ _ reducesTo_S8192x1x1_S8192x1_d2 h h_S_]
  exact fold_andi_one _ _ (fun k => inrange_at _)

/-! ## The gather -/

/-- The batched gather along each row, read at row r: the operand at row r and at the column the start index names,
    read signed and clamped to the row's extent. -/
theorem gather_row_apply {α : Type} (x : S8192x8192.Idx → α) (idx : IVec S8192x1x1 32) (r : Fin 8192) :
    Host.gather gather_S8192x8192_S8192x1x1_S8192x1_n_1_0_0_1_2_11 x idx (ix2 r (0 : Fin 1))
      = x (ix2 r (⟨min (idx (ix3 r (0 : Fin 1) (0 : Fin 1))).toInt.toNat (8192 - 1), by omega⟩ : Fin 8192)) := by
  unfold Host.gather
  refine congrArg x (funext fun a => Fin.ext ?_)
  show gather_S8192x8192_S8192x1x1_S8192x1_n_1_0_0_1_2_11.start (ix2 r (0 : Fin 1)) idx a
      + gather_S8192x8192_S8192x1x1_S8192x1_n_1_0_0_1_2_11.batchCoord (ix2 r (0 : Fin 1)) a
      + gather_S8192x8192_S8192x1x1_S8192x1_n_1_0_0_1_2_11.offCoord (ix2 r (0 : Fin 1)) a = _
  match a with
  | ⟨0, _⟩ =>
    have hb : (⟨0, by decide⟩ : Fin S8192x8192.rank) ∈ gather_S8192x8192_S8192x1x1_S8192x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    have hm : (⟨1, by decide⟩ : Fin S8192x8192.rank) ∈ gather_S8192x8192_S8192x1x1_S8192x1_n_1_0_0_1_2_11.startIndexMap :=
      List.mem_singleton.mpr rfl
    have hc : (⟨1, by decide⟩ : Fin S8192x8192.rank) ∈ gather_S8192x8192_S8192x1x1_S8192x1_n_1_0_0_1_2_11.collapsedSliceDims :=
      List.mem_singleton.mpr rfl
    rw [GatherDims.batchCoord_eq_zero _ _ _
        (fun h => absurd (congrArg Fin.val (List.mem_singleton.mp h)) Nat.one_ne_zero),
      GatherDims.offCoord_eq_zero _ _ _ (fun h => ((GatherDims.mem_sKept _ _).mp h).1 hc)]
    simp only [Nat.add_zero]
    unfold GatherDims.start
    rw [dif_pos hm]
    have hsi : gather_S8192x8192_S8192x1x1_S8192x1_n_1_0_0_1_2_11.siIdx (ix2 r (0 : Fin 1))
        ⟨List.idxOf (⟨1, by decide⟩ : Fin S8192x8192.rank) gather_S8192x8192_S8192x1x1_S8192x1_n_1_0_0_1_2_11.startIndexMap,
          List.idxOf_lt_length_iff.2 hm⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- Entry (r, 0) of the checked gather is the operand at (r, partner r). -/
theorem take_at (x0 x1 : (⟨S4096x256, .f32⟩ : BufTy).Contents (Elt Ideal)) (r : Fin 8192) :
    val_main_v22 (F := Ideal) x0 x1 (ix2 r (0 : Fin 1))
      = val_main_v20 (F := Ideal) x0 x1 (ix2 r (Cert.Spec.partner r)) := by
  rw [val_main_v22_apply, check_at, select_one]
  unfold val_main_call3_v13
  generalize val_main_v20 (F := Ideal) x0 x1 = y
  refine (gather_row_apply y _ r).trans ?_
  refine congrArg (fun c : Fin 8192 => y (ix2 r c)) (Fin.ext ?_)
  show min (val_main_call3_v5 (F := Ideal) (ix3 r (0 : Fin 1) (0 : Fin 1))).toInt.toNat (8192 - 1) = _
  rw [start_at]
  exact clamp_at _ (Cert.Spec.partner r).isLt

end Cert.RefValue

end
-- ==== Proof.RefValue.lean ====
/-
  The reference program's result, read back as the specification's `lossR` of the stacked argument arrays.
  The result is minus the sum, from an explicit zero, of the 8192 gathered log-probabilities, divided by the word
  of 8192. The sum runs over the indices of an 8192-by-1 array, which are the rows; the entry gathered in row r is
  the log-probability of row r's logits at its partner's column, and row r's logits are the specification's
  reference logits of the unit rows.
-/
import proofs.«157822_j81604378624062_1_alg».proof.Proof.RefReadP
import proofs.«157822_j81604378624062_1_alg».proof.Proof.Spec
import proofs.«157822_j81604378624062_1_alg».proof.Proof.RefLogit
import proofs.«157822_j81604378624062_1_alg».proof.Proof.RefSoftmax
import proofs.«157822_j81604378624062_1_alg».proof.Proof.RefLabels

noncomputable section

namespace Cert.RefValue

open Cert.ReferenceIdeal Cert.ReferenceIdeal.Read Cert.ReferenceIdeal.Gen Idealize.ShloMosaic Idealize.ShloMosaic.ValueIdx

/-- The entry gathered in row r: the specification's log-probability of row r's reference logits at its partner. -/
theorem picked_at (x0 x1 : (⟨S4096x256, .f32⟩ : BufTy).Contents (Elt Ideal)) (r : Fin 8192) :
    val_main_v22 (F := Ideal) x0 x1 (ix2 r (0 : Fin 1))
      = Cert.Spec.rowR (Cert.Spec.logitR (fun r => Cert.Spec.unitRowH (rows x0 x1 r)) r) (Cert.Spec.partner r) := by
  rw [take_at, logp_at]
  exact congrArg (fun s => Cert.Spec.rowR s (Cert.Spec.partner r)) (funext fun j => logit_at x0 x1 r j)

/-- A sum over the indices of an 8192-by-1 array is the sum over the rows. -/
theorem sum_column (f : S8192x1.Idx → EReal) : ∑ j, f j = ∑ r : Fin 8192, f (ix2 r (0 : Fin 1)) := by
  rw [sum_idx2]
  exact Finset.sum_congr rfl fun r _ => Fin.sum_univ_one _

/-- The reference's result is the specification's reference loss of the stacked rows. -/
theorem ref_eq_rows (x0 x1 : (⟨S4096x256, .f32⟩ : BufTy).Contents (Elt Ideal)) :
    val_main_v25 (F := Ideal) x0 x1 = fun _ => Cert.Spec.lossR (rows x0 x1) := by
  funext i
  rw [val_main_v25_apply, val_main_v24_apply, val_main_v23_apply, val_main_cst_3_apply, val_main_cst_4_apply,
    sum_column, Finset.sum_congr rfl fun r _ => picked_at x0 x1 r]
  simp only [Ideal.hostDivf_def, Ideal.hostNegf_def, Ideal.negf_def, Ideal.ofBits_def, Ideal.ofBits_zero_f32]
  rfl

/-- The same with the stacked rows spelt out: entry (r, k) is the concatenation of the two arguments at (r, k). -/
theorem ref_eq (x0 x1 : (⟨S4096x256, .f32⟩ : BufTy).Contents (Elt Ideal)) :
    val_main_v25 (F := Ideal) x0 x1
      = fun _ => Cert.Spec.lossR (fun r k => val_main_v0 (F := Ideal) x0 x1 (ix2 r k)) :=
  ref_eq_rows x0 x1

end Cert.RefValue

end
-- ==== Proof.SpecLaw.lean ====
/-
  The law behind the certificate: the kernel's and the reference's spellings of the loss agree whenever every
  input entry is a real number.

  Three of the steps hold for all extended reals: a sum that starts from an explicit zero is the sum; a product
  with 2 is a quotient by 1/2; hence the two spellings of the unit rows and of the logits coincide outright.
  Realness is needed only for one row's loss: the running maximum of real logits is attained, so it is real, the
  exponentials of the shifted logits are positive reals, their sum is a positive real, and its logarithm is real.
  Then the kernel's row loss is a real number v and the reference's log-probability is -v, and the two means are
  the same quotient.
-/
import proofs.«157822_j81604378624062_1_alg».proof.Proof.Spec
import Mathlib.Data.Finset.Fold
import Mathlib.Analysis.SpecialFunctions.Log.Basic

noncomputable section

namespace Cert.Spec

open Idealize.ShloMosaic

/-! ### The literals -/

/-- The running maximum starts from the bottom element. -/
theorem negInf_eq : negInf = ⊥ := by
  simp [negInf, Ideal.ofBits, Ideal.ieee]

/-- The word for 2 denotes 2. -/
theorem two_eq : two = ((2 : ℝ) : EReal) := by
  simp [two, Ideal.ofBits, Ideal.ieee]
  rw [← EReal.coe_mul, EReal.coe_eq_coe_iff]
  norm_num

/-- The word for 1/2 denotes 1/2. -/
theorem half_eq : half = (((1 : ℝ) / 2 : ℝ) : EReal) := by
  simp [half, Ideal.ofBits, Ideal.ieee]
  rw [← EReal.coe_mul, EReal.coe_eq_coe_iff]
  norm_num

/-- The lower clamp of a row's length is a positive real number. -/
theorem floorLen_pos : ∃ c : ℝ, 0 < c ∧ floorLen = (c : EReal) := by
  refine ⟨(11258999 : ℝ) * ((2 : ℝ) ^ 50)⁻¹, by positivity, ?_⟩
  simp [floorLen, Ideal.ofBits, Ideal.ieee]

/-- The diagonal's mask value is a real number. -/
theorem maskVal_real : ∃ c : ℝ, maskVal = (c : EReal) := by
  refine ⟨-((15625000 : ℝ) * (2 : ℝ) ^ 6), ?_⟩
  simp [maskVal, Ideal.ofBits, Ideal.ieee]

/-! ### Sums of real numbers -/

/-- A finite sum of real numbers, read in the extended reals, is the real sum. -/
theorem coe_sum {ι : Type*} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-! ### The two spellings of the unit rows and of the logits coincide -/

/-- The host's sum from an explicit zero is the sum. -/
theorem unitRowH_eq (x : Fin 256 → EReal) : unitRowH x = unitRow x := by
  funext k
  simp only [unitRowH, unitRow, zero_add]

/-- Twice a value is its quotient by one half. -/
theorem mul_two_eq_div_half (x : EReal) : x * two = Ideal.div x half := by
  rw [two_eq, half_eq, Ideal.div_coe (by norm_num : ((1 : ℝ) / 2) ≠ 0) x]
  congr 2
  norm_num

/-- The kernel's and the reference's logits are the same function. -/
theorem logitK_eq_logitR (u : Rows) : logitK u = logitR u := by
  funext r j
  simp only [logitK, logitR, mul_two_eq_div_half]

/-! ### Real rows stay real -/

/-- A row of real numbers, scaled to unit length with the clamp, is a row of real numbers. -/
theorem unitRow_real (x : Fin 256 → EReal) (hx : ∀ k, ∃ a : ℝ, x k = (a : EReal)) (k : Fin 256) :
    ∃ b : ℝ, unitRow x k = (b : EReal) := by
  choose a ha using hx
  obtain ⟨c, hc, hfl⟩ := floorLen_pos
  have hs : sumsq x = ((∑ i, a i * a i : ℝ) : EReal) := by
    simp only [sumsq, ha, ← EReal.coe_mul]
    exact coe_sum Finset.univ fun i => a i * a i
  have hnn : ¬ (∑ i, a i * a i : ℝ) < 0 :=
    not_lt.mpr (Finset.sum_nonneg fun i _ => mul_self_nonneg (a i))
  have hL : max (Ideal.sqrt (sumsq x)) floorLen
      = ((max (Real.sqrt (∑ i, a i * a i)) c : ℝ) : EReal) := by
    rw [hs, Ideal.sqrt_coe, if_neg hnn, hfl, ← EReal.coe_strictMono.monotone.map_max]
  have hpos : max (Real.sqrt (∑ i, a i * a i)) c ≠ 0 :=
    ne_of_gt (lt_of_lt_of_le hc (le_max_right _ _))
  refine ⟨a k * (1 / max (Real.sqrt (∑ i, a i * a i)) c), ?_⟩
  rw [unitRow, hL, Ideal.div_coe hpos, ha k, ← EReal.coe_mul]

/-- The inner product of two rows of real numbers is a real number. -/
theorem dot_real (u v : Fin 256 → EReal) (hu : ∀ k, ∃ a : ℝ, u k = (a : EReal))
    (hv : ∀ k, ∃ b : ℝ, v k = (b : EReal)) : ∃ d : ℝ, dot u v = (d : EReal) := by
  choose a ha using hu
  choose b hb using hv
  refine ⟨∑ k, a k * b k, ?_⟩
  simp only [dot, ha, hb, ← EReal.coe_mul]
  exact coe_sum Finset.univ fun k => a k * b k

/-- The logits of rows of real numbers are real numbers. -/
theorem logitK_real (u : Rows) (hu : ∀ r k, ∃ a : ℝ, u r k = (a : EReal)) (r j : Fin 8192) :
    ∃ t : ℝ, logitK u r j = (t : EReal) := by
  unfold logitK
  split_ifs with h
  · exact maskVal_real
  · obtain ⟨d, hd⟩ := dot_real (u r) (u j) (hu r) (hu j)
    exact ⟨d * 2, by rw [hd, two_eq, ← EReal.coe_mul]⟩

/-! ### One row's loss -/

/-- The running maximum of real logits, started from the bottom element, is one of the logits and bounds them all. -/
theorem foldmax_real (s : Fin 8192 → EReal) (t : Fin 8192 → ℝ) (hs : ∀ j, s j = (t j : EReal)) :
    ∃ j0 : Fin 8192, Finset.univ.fold max negInf s = (t j0 : EReal) ∧ ∀ j, t j ≤ t j0 := by
  rw [negInf_eq]
  have hle : ∀ j, s j ≤ Finset.univ.fold max ⊥ s := fun j =>
    ((Finset.fold_max_le _).mp le_rfl).2 j (Finset.mem_univ j)
  rcases (Finset.le_fold_max _).mp (le_refl (Finset.univ.fold max ⊥ s)) with h | ⟨j0, _, h⟩
  · exfalso
    have h0 := le_trans (hle 0) h
    rw [hs 0, le_bot_iff] at h0
    exact EReal.coe_ne_bot _ h0
  · refine ⟨j0, le_antisymm (by rw [← hs j0]; exact h) (by rw [← hs j0]; exact hle j0), fun j => ?_⟩
    have hj := le_trans (hle j) h
    rw [hs j, hs j0] at hj
    exact_mod_cast hj

/-- For real logits the kernel's row loss is a real number, and the reference's log-probability is its negative. -/
theorem row_real (s : Fin 8192 → EReal) (hs : ∀ j, ∃ t : ℝ, s j = (t : EReal)) (l : Fin 8192) :
    ∃ v : ℝ, rowK s l = (v : EReal) ∧ rowR s l = ((-v : ℝ) : EReal) := by
  choose t ht using hs
  obtain ⟨j0, hM, hmax⟩ := foldmax_real s t ht
  have hbot : max negInf (t j0 : EReal) = (t j0 : EReal) := by
    rw [negInf_eq]; exact max_eq_right bot_le
  have hexp : ∀ j, Ideal.exp (s j - (t j0 : EReal)) = ((Real.exp (t j - t j0) : ℝ) : EReal) := fun j => by
    rw [ht j, ← EReal.coe_sub, Ideal.exp_coe]
  have hsum : ∑ j, Ideal.exp (s j - (t j0 : EReal)) = ((∑ j, Real.exp (t j - t j0) : ℝ) : EReal) := by
    simp only [hexp]
    exact coe_sum Finset.univ fun j => Real.exp (t j - t j0)
  have hpos : ¬ (∑ j, Real.exp (t j - t j0) : ℝ) ≤ 0 :=
    not_le.mpr (Finset.sum_pos (fun j _ => Real.exp_pos _) ⟨0, Finset.mem_univ _⟩)
  have hpick : ∑ j, (if j = l then s j else 0) = (t l : EReal) := by
    rw [Finset.sum_ite_eq' Finset.univ l s, if_pos (Finset.mem_univ l), ht l]
  refine ⟨t j0 + Real.log (∑ j, Real.exp (t j - t j0)) - t l, ?_, ?_⟩
  · rw [rowK, hM, hsum, Ideal.log_coe, if_neg hpos, hpick, ← EReal.coe_add, ← EReal.coe_sub]
  · rw [rowR, hM, hbot, zero_add, hsum, Ideal.log_coe, if_neg hpos, ht l, ← EReal.coe_sub, ← EReal.coe_sub,
      EReal.coe_eq_coe_iff]
    ring

/-! ### The mean -/

/-- The kernel's and the reference's spellings of the loss agree on rows of real numbers: each row's loss is a real
    number v and the reference's log-probability is -v, so both results are the same sum over the same count. -/
theorem lossK_eq_lossR (z : Rows) (hz : ∀ r k, ∃ x : ℝ, z r k = (x : EReal)) : lossK z = lossR z := by
  have hu : ∀ r k, ∃ a : ℝ, (fun r => unitRow (z r)) r k = (a : EReal) := fun r k =>
    unitRow_real (z r) (hz r) k
  have hrow : ∀ r, ∃ v : ℝ, rowK (logitK (fun r => unitRow (z r)) r) (partner r) = (v : EReal)
      ∧ rowR (logitK (fun r => unitRow (z r)) r) (partner r) = ((-v : ℝ) : EReal) := fun r =>
    row_real _ (fun j => logitK_real _ hu r j) (partner r)
  choose v hvK hvR using hrow
  have hH : (fun r => unitRowH (z r)) = fun r => unitRow (z r) := funext fun r => unitRowH_eq (z r)
  rw [lossK, lossR, hH, ← logitK_eq_logitR]
  simp only [hvK, hvR]
  rw [coe_sum, coe_sum, zero_add, zero_add, Finset.sum_neg_distrib, EReal.coe_neg, neg_neg]

end Cert.Spec

end
-- ==== Proof.FiniteInputs.lean ====
/-
  From the precondition to real entries. The precondition is the conjunction of two tests, one per argument:
  every entry's absolute value is below plus infinity. A conjunction of bits that is 1 has both bits 1; a
  reduction by "and" over all axes that is 1 met a 1 at every index; and an extended real whose absolute value
  max x (-x) is below the top element is neither the top nor the bottom element, so it is a real number.
-/
import proofs.«157822_j81604378624062_1_alg».proof.Pre_finite_inputs
import Idealize.ShloMosaic.Lib.ReduceAll
import Idealize.ShloMosaic.Lib.ValueIdx
import Idealize.ShloMosaic.PureOps.Ideal.Laws

noncomputable section

namespace Cert.FiniteIn

open Idealize.ShloMosaic

/-- An extended real whose absolute value is below plus infinity (the word 0x7F800000) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; revert h; simp [Ideal.cmp]
  | coe r => exact ⟨r, rfl⟩
  | top => exfalso; revert h; simp [Ideal.cmp]

/-- The shape of a scalar has exactly one index. -/
instance subsingleton_scalar_idx : Subsingleton Cert.Pre_finite_inputs.S_.Idx :=
  ⟨fun _ _ => funext fun d => d.elim0⟩

/-- Under the precondition every entry of both arguments is a real number. -/
theorem real_of_pre [Cert.Pre_finite_inputs.Facts]
    (x0 x1 : FVec Ideal Cert.Pre_finite_inputs.S4096x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 (show IntOp.andi _ _ = 1#1 from h0)
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.FiniteIn

end
-- ==== Proof.StackReal.lean ====
/-
  The stacked rows. The program stacks its two arguments along the rows: row r of the stack is row r of the first
  argument when r is below 4096, and row r - 4096 of the second otherwise. Hence every entry of the stack is an
  entry of one of the two arguments, and is a real number when all of theirs are.
-/
import proofs.«157822_j81604378624062_1_alg».proof.KernelIdeal
import Idealize.ShloMosaic.Lib.Pipeline.Value
import Idealize.ShloMosaic.Lib.ValueIdx

noncomputable section

namespace Cert.StackReal

open Idealize.ShloMosaic Cert.KernelIdeal

/-- A row of the first half of the stack is that row of the first argument. -/
theorem stack_apply_fst {α : Type} (x0 x1 : S4096x256.Idx → α)
    (h : Shape.Concatenates [S4096x256, S4096x256] S8192x256 0) (r : Fin 8192) (k : Fin 256) (hr : r.val < 4096) :
    concatenate S8192x256 0 [⟨S4096x256, x0⟩, ⟨S4096x256, x1⟩] h (ValueIdx.ix2 r k)
      = x0 (ValueIdx.ix2 ⟨r.val, hr⟩ k) := by
  refine concatenate_pair_apply_left (0 : Fin S8192x256.rank) x0 x1 h (ValueIdx.ix2 r k) rfl
    (ValueIdx.ix2 ⟨r.val, hr⟩ k) ?_
  intro b
  match b with
  | ⟨0, _⟩ => rfl
  | ⟨1, _⟩ => rfl

/-- A row of the second half of the stack is the row 4096 earlier of the second argument. -/
theorem stack_apply_snd {α : Type} (x0 x1 : S4096x256.Idx → α)
    (h : Shape.Concatenates [S4096x256, S4096x256] S8192x256 0) (r : Fin 8192) (k : Fin 256) (hr : 4096 ≤ r.val) :
    concatenate S8192x256 0 [⟨S4096x256, x0⟩, ⟨S4096x256, x1⟩] h (ValueIdx.ix2 r k)
      = x1 (ValueIdx.ix2 ⟨r.val - 4096, by omega⟩ k) := by
  refine concatenate_pair_apply_right (0 : Fin S8192x256.rank) x0 x1 h (ValueIdx.ix2 r k) rfl rfl
    (ValueIdx.ix2 ⟨r.val - 4096, by omega⟩ k) ?_ ?_
  · intro b hb
    match b, hb with
    | ⟨0, _⟩, hb => exact absurd rfl hb
    | ⟨1, _⟩, _ => rfl
  · show r.val - 4096 + 4096 = r.val
    omega

/-- Every entry of the stack is a real number when every entry of both arguments is. -/
theorem stack_real (x0 x1 : S4096x256.Idx → EReal) (h0 : ∀ i, ∃ a : ℝ, x0 i = (a : EReal))
    (h1 : ∀ i, ∃ a : ℝ, x1 i = (a : EReal)) (h : Shape.Concatenates [S4096x256, S4096x256] S8192x256 0)
    (j : S8192x256.Idx) :
    ∃ a : ℝ, concatenate S8192x256 0 [⟨S4096x256, x0⟩, ⟨S4096x256, x1⟩] h j = (a : EReal) := by
  obtain ⟨r, k, rfl⟩ : ∃ (r : Fin 8192) (k : Fin 256), j = ValueIdx.ix2 r k := ⟨j 0, j 1, ValueIdx.eq_ix2 j⟩
  by_cases hr : r.val < 4096
  · rw [stack_apply_fst x0 x1 h r k hr]; exact h0 _
  · rw [stack_apply_snd x0 x1 h r k (Nat.le_of_not_lt hr)]; exact h1 _

end Cert.StackReal

end
-- ==== Proof.lean ====
/-
  A contrastive loss over 8192 rows of 256 numbers — every row scaled to unit length, twice the pairwise inner products
  as logits, the diagonal masked at a finite value, each row's loss its log-sum-exp minus the logit of its partner row,
  the mean over the rows — computed by a tiled kernel in two regions and by a reference on the host.

  At the ideal instance both compute one extended real. The kernel's is the specification's `lossK` of the stacked
  rows: the program's run pushes the launch contents through the stacking, the two regions' write-backs (each output
  array one function of the region's entry contents, block by block) and the host's sum and division. The reference's
  is the specification's `lossR` of the same rows, read off its run one operation at a time. The two agree when every
  input entry is a real number, which the precondition says: then every intermediate value is a real number, and the
  two spellings differ by laws of the real field (multiplying by 2 against dividing by 1/2; a maximum taken out before
  the exponentials and added back after the logarithm; a masked sum picking one entry; a negation moved across a sum).

  The three frame claims: each program runs to its end without a fault and leaves its arguments as launched. For the
  kernel, at the word-level instance and at the ideal one, that is the same run (it is written once for any float
  instance). The idealization rewrote no operation, so there is nothing to preserve beyond the program's own text.
-/
import proofs.«157822_j81604378624062_1_alg».proof.Defs
import proofs.«157822_j81604378624062_1_alg».proof.Proof.Gen.Kernel
import proofs.«157822_j81604378624062_1_alg».proof.Proof.Gen.KernelIdeal
import proofs.«157822_j81604378624062_1_alg».proof.Proof.Gen.ReferenceIdeal
import proofs.«157822_j81604378624062_1_alg».proof.Proof.Gen.Pre_finite_inputs
import proofs.«157822_j81604378624062_1_alg».proof.Proof.BitsWholeFrame
import proofs.«157822_j81604378624062_1_alg».proof.Proof.WholeValue
import proofs.«157822_j81604378624062_1_alg».proof.Proof.RefRun
import proofs.«157822_j81604378624062_1_alg».proof.Proof.RefValue
import proofs.«157822_j81604378624062_1_alg».proof.Proof.SpecLaw
import proofs.«157822_j81604378624062_1_alg».proof.Proof.FiniteInputs
import proofs.«157822_j81604378624062_1_alg».proof.Proof.StackReal

noncomputable section

namespace Cert.Proof

open Idealize.ShloMosaic Idealize.ShloMosaic.TcCoe Idealize.SL.Sem Idealize.ShloMosaic.ValueIdx

theorem frame_kernel : Cert.frame_Kernel := fun m ρ _ => Cert.Kernel.Whole.frame m ρ

theorem frame_kernelIdeal : Cert.frame_KernelIdeal := fun m ρ _ => Cert.KernelIdeal.Whole.frame m ρ

theorem frame_referenceIdeal : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- The reference's result term, at arguments that satisfy the precondition, is the kernel's: the specification's two
    spellings agree on rows of real numbers. -/
theorem same_result (x0 x1 : FVec Ideal Cert.KernelIdeal.S4096x256 .f32)
    (hc : Shape.Concatenates [Cert.KernelIdeal.S4096x256, Cert.KernelIdeal.S4096x256] Cert.KernelIdeal.S8192x256 0)
    (hfin : Cert.Pre_finite_inputs.fn (F := Ideal) x0 x1 = fun _ => 1#1) :
    Cert.ReferenceIdeal.Read.val_main_v25 (F := Ideal) x0 x1
      = fun _ => Cert.Spec.lossK (fun r k => concatenate Cert.KernelIdeal.S8192x256 0 [⟨Cert.KernelIdeal.S4096x256, x0⟩, ⟨Cert.KernelIdeal.S4096x256, x1⟩] hc (ix2 r k)) := by
  rw [Cert.RefValue.ref_eq]
  funext _
  obtain ⟨h0, h1⟩ := Cert.FiniteIn.real_of_pre x0 x1 hfin
  exact (Cert.Spec.lossK_eq_lossR _ fun r k => Cert.StackReal.stack_real x0 x1 h0 h1 _ (ix2 r k)).symm

theorem algebraic : Cert.algebraic_KernelIdeal_ReferenceIdeal := by
  intro m ρ m' ρ' hpre hagree
  refine ⟨fun c => fun _ => Cert.Spec.lossK (Cert.KernelIdeal.Whole.stackedRows m c), Cert.KernelIdeal.Whole.value_run m ρ, ?_⟩
  refine (θ_run Cert.ReferenceIdeal.defs _ _).mono (fun _ h c => ⟨(h c).1.trans ?_, (h c).2⟩)
    (Cert.RefRun.run (F := Ideal) m' ρ')
  rw [(hagree c).1, (hagree c).2]
  exact same_result _ _ Cert.KernelIdeal.Facts₀.concatenates_S4096x256_S4096x256_S8192x256_d0 (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
